-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64 : Shape := ⟨2, ![256, 64]⟩
abbrev S200000 : Shape := ⟨1, ![200000]⟩
abbrev S256x1500 : Shape := ⟨2, ![256, 1500]⟩
abbrev S12288x128 : Shape := ⟨2, ![12288, 128]⟩
abbrev S128x1500 : Shape := ⟨2, ![128, 1500]⟩
abbrev S1500 : Shape := ⟨1, ![1500]⟩
abbrev S_ : Shape := ⟨0, ![]⟩

class Facts : Prop where
  bcast_S_S256x1500 : S_.BroadcastsInDim S256x1500 (![] : Fin 0 → Fin S256x1500.rank)
  reducesTo_S256x1500_S_d0_1 : S256x1500.ReducesTo [0, 1] S_
  h_S_ : 0 < S_.numel
  bcast_S_S12288x128 : S_.BroadcastsInDim S12288x128 (![] : Fin 0 → Fin S12288x128.rank)
  reducesTo_S12288x128_S_d0_1 : S12288x128.ReducesTo [0, 1] S_
  bcast_S_S128x1500 : S_.BroadcastsInDim S128x1500 (![] : Fin 0 → Fin S128x1500.rank)
  reducesTo_S128x1500_S_d0_1 : S128x1500.ReducesTo [0, 1] S_
  bcast_S_S1500 : S_.BroadcastsInDim S1500 (![] : Fin 0 → Fin S1500.rank)
  reducesTo_S1500_S_d0 : S1500.ReducesTo [0] S_

variable [Facts]

def fn_part1 {F : FTy → Type} [FloatOps F] (main_v13 : IVec S_ 1) (main_v16 : IVec S1500 1) : IVec S_ 1 :=
  let main_c_5 : IVec S_ 1 := constantI S_ 1 1#1
  let main_v17 : IVec S_ 1 := (fun x v => Host.reduce IntOp.andi x v reducesTo_S1500_S_d0 h_S_) main_v16 main_c_5
  let main_v18 : IVec S_ 1 := andi main_v13 main_v17
  main_v18

def fn {F : FTy → Type} [FloatOps F] (main_arg0 : IVec S256x64 32) (main_arg1 : IVec S200000 32) (main_arg2 : IVec S200000 32) (main_arg3 : FVec F S256x1500 .f32) (main_arg4 : FVec F S12288x128 .f32) (main_arg5 : FVec F S128x1500 .f32) (main_arg6 : FVec F S1500 .f32) : IVec S_ 1 :=
  let main_v0 : FVec F S256x1500 .f32 := Host.absf main_arg3
  let main_cst : FVec F S_ .f32 := constant S_ .f32 0x7F800000#32
  let main_v1 : FVec F S256x1500 .f32 := broadcastInDim S256x1500 ![] bcast_S_S256x1500 main_cst
  let main_v2 : IVec S256x1500 1 := cmpf .olt main_v0 main_v1
  let main_c : IVec S_ 1 := constantI S_ 1 1#1
  let main_v3 : IVec S_ 1 := (fun x v => Host.reduce IntOp.andi x v reducesTo_S256x1500_S_d0_1 h_S_) main_v2 main_c
  let main_v4 : FVec F S12288x128 .f32 := Host.absf main_arg4
  let main_cst_0 : FVec F S_ .f32 := constant S_ .f32 0x7F800000#32
  let main_v5 : FVec F S12288x128 .f32 := broadcastInDim S12288x128 ![] bcast_S_S12288x128 main_cst_0
  let main_v6 : IVec S12288x128 1 := cmpf .olt main_v4 main_v5
  let main_c_1 : IVec S_ 1 := constantI S_ 1 1#1
  let main_v7 : IVec S_ 1 := (fun x v => Host.reduce IntOp.andi x v reducesTo_S12288x128_S_d0_1 h_S_) main_v6 main_c_1
  let main_v8 : IVec S_ 1 := andi main_v3 main_v7
  let main_v9 : FVec F S128x1500 .f32 := Host.absf main_arg5
  let main_cst_2 : FVec F S_ .f32 := constant S_ .f32 0x7F800000#32
  let main_v10 : FVec F S128x1500 .f32 := broadcastInDim S128x1500 ![] bcast_S_S128x1500 main_cst_2
  let main_v11 : IVec S128x1500 1 := cmpf .olt main_v9 main_v10
  let main_c_3 : IVec S_ 1 := constantI S_ 1 1#1
  let main_v12 : IVec S_ 1 := (fun x v => Host.reduce IntOp.andi x v reducesTo_S128x1500_S_d0_1 h_S_) main_v11 main_c_3
  let main_v13 : IVec S_ 1 := andi main_v8 main_v12
  let main_v14 : FVec F S1500 .f32 := Host.absf main_arg6
  let main_cst_4 : FVec F S_ .f32 := constant S_ .f32 0x7F800000#32
  let main_v15 : FVec F S1500 .f32 := broadcastInDim S1500 ![] bcast_S_S1500 main_cst_4
  let main_v16 : IVec S1500 1 := cmpf .olt main_v14 main_v15
  fn_part1 (F := F) main_v13 main_v16
-- ==== Kernel.lean ====
abbrev S256x64 : Shape := ⟨2, ![256, 64]⟩
abbrev S200000 : Shape := ⟨1, ![200000]⟩
abbrev S256x1500 : Shape := ⟨2, ![256, 1500]⟩
abbrev S12288x128 : Shape := ⟨2, ![12288, 128]⟩
abbrev S128x1500 : Shape := ⟨2, ![128, 1500]⟩
abbrev S1500 : Shape := ⟨1, ![1500]⟩
abbrev S_ : Shape := ⟨0, ![]⟩
abbrev S256x64x1 : Shape := ⟨3, ![256, 64, 1]⟩
abbrev S256x64x128 : Shape := ⟨3, ![256, 64, 128]⟩
abbrev S256x128 : Shape := ⟨2, ![256, 128]⟩
abbrev S1x1500 : Shape := ⟨2, ![1, 1500]⟩
abbrev S256 : Shape := ⟨1, ![256]⟩
abbrev S256x1 : Shape := ⟨2, ![256, 1]⟩
abbrev S12288x1 : Shape := ⟨2, ![12288, 1]⟩
abbrev S1024x128 : Shape := ⟨2, ![1024, 128]⟩
abbrev S1024x1 : Shape := ⟨2, ![1024, 1]⟩
abbrev S128x1024 : Shape := ⟨2, ![128, 1024]⟩
abbrev S1024x1024 : Shape := ⟨2, ![1024, 1024]⟩
abbrev S1024 : Shape := ⟨1, ![1024]⟩
abbrev S12288 : Shape := ⟨1, ![12288]⟩
abbrev S200000x1 : Shape := ⟨2, ![200000, 1]⟩
abbrev S200000x128 : Shape := ⟨2, ![200000, 128]⟩

abbrev nBuf : Space → Nat
  | .hbm => 112
  | .vmem => 7
  | .smem => 0
  | _ => 0

abbrev bufTy : (tb : Table) → Fin (tcTables nBuf tb) → BufTy
  | .hbm, ⟨0, _⟩ => ⟨S256x64, .i32⟩
  | .hbm, ⟨1, _⟩ => ⟨S200000, .i32⟩
  | .hbm, ⟨2, _⟩ => ⟨S200000, .i32⟩
  | .hbm, ⟨3, _⟩ => ⟨S256x1500, .f32⟩
  | .hbm, ⟨4, _⟩ => ⟨S12288x128, .f32⟩
  | .hbm, ⟨5, _⟩ => ⟨S128x1500, .f32⟩
  | .hbm, ⟨6, _⟩ => ⟨S1500, .f32⟩
  | .hbm, ⟨7, _⟩ => ⟨S_, .i32⟩
  | .hbm, ⟨8, _⟩ => ⟨S256x64, .i32⟩
  | .hbm, ⟨9, _⟩ => ⟨S256x64, .i1⟩
  | .hbm, ⟨10, _⟩ => ⟨S_, .i32⟩
  | .hbm, ⟨11, _⟩ => ⟨S256x64, .i32⟩
  | .hbm, ⟨12, _⟩ => ⟨S256x64, .i32⟩
  | .hbm, ⟨13, _⟩ => ⟨S256x64, .i32⟩
  | .hbm, ⟨14, _⟩ => ⟨S256x64x1, .i32⟩
  | .hbm, ⟨15, _⟩ => ⟨S256x64x128, .f32⟩
  | .hbm, ⟨16, _⟩ => ⟨S_, .i32⟩
  | .hbm, ⟨17, _⟩ => ⟨S256x64, .i32⟩
  | .hbm, ⟨18, _⟩ => ⟨S256x64, .i1⟩
  | .hbm, ⟨19, _⟩ => ⟨S256x64x1, .i1⟩
  | .hbm, ⟨20, _⟩ => ⟨S_, .f32⟩
  | .hbm, ⟨21, _⟩ => ⟨S_, .f32⟩
  | .hbm, ⟨22, _⟩ => ⟨S256x64x128, .i1⟩
  | .hbm, ⟨23, _⟩ => ⟨S256x64x128, .f32⟩
  | .hbm, ⟨24, _⟩ => ⟨S256x64x128, .f32⟩
  | .hbm, ⟨25, _⟩ => ⟨S_, .f32⟩
  | .hbm, ⟨26, _⟩ => ⟨S256x128, .f32⟩
  | .hbm, ⟨27, _⟩ => ⟨S256x128, .f32⟩
  | .hbm, ⟨28, _⟩ => ⟨S256x1500, .f32⟩
  | .hbm, ⟨29, _⟩ => ⟨S1x1500, .f32⟩
  | .hbm, ⟨30, _⟩ => ⟨S256x1500, .f32⟩
  | .hbm, ⟨31, _⟩ => ⟨S256x1500, .f32⟩
  | .hbm, ⟨32, _⟩ => ⟨S_, .f32⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S256x1, .f32⟩
  | .hbm, ⟨38, _⟩ => ⟨S256x1500, .f32⟩
  | .hbm, ⟨39, _⟩ => ⟨S256x1500, .f32⟩
  | .hbm, ⟨40, _⟩ => ⟨S256x1500, .f32⟩
  | .hbm, ⟨41, _⟩ => ⟨S_, .f32⟩
  | .hbm, ⟨42, _⟩ => ⟨S256, .f32⟩
  | .hbm, ⟨43, _⟩ => ⟨S256x1, .f32⟩
  | .hbm, ⟨44, _⟩ => ⟨S256x1500, .f32⟩
  | .hbm, ⟨45, _⟩ => ⟨S256x1500, .f32⟩
  | .hbm, ⟨46, _⟩ => ⟨S_, .f32⟩
  | .hbm, ⟨47, _⟩ => ⟨S256x1500, .f32⟩
  | .hbm, ⟨48, _⟩ => ⟨S256x1500, .f32⟩
  | .hbm, ⟨49, _⟩ => ⟨S256x1500, .f32⟩
  | .hbm, ⟨50, _⟩ => ⟨S256x1500, .f32⟩
  | .hbm, ⟨51, _⟩ => ⟨S_, .f32⟩
  | .hbm, ⟨52, _⟩ => ⟨S256x1500, .f32⟩
  | .hbm, ⟨53, _⟩ => ⟨S256x1500, .f32⟩
  | .hbm, ⟨54, _⟩ => ⟨S_, .f32⟩
  | .hbm, ⟨55, _⟩ => ⟨S256x1500, .f32⟩
  | .hbm, ⟨56, _⟩ => ⟨S256x1500, .f32⟩
  | .hbm, ⟨57, _⟩ => ⟨S_, .f32⟩
  | .hbm, ⟨58, _⟩ => ⟨S256x1500, .f32⟩
  | .hbm, ⟨59, _⟩ => ⟨S256x1500, .f32⟩
  | .hbm, ⟨60, _⟩ => ⟨S256x1500, .f32⟩
  | .hbm, ⟨61, _⟩ => ⟨S256x1500, .f32⟩
  | .hbm, ⟨62, _⟩ => ⟨S256x1500, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S12288x1, .f32⟩
  | .hbm, ⟨69, _⟩ => ⟨S12288, .f32⟩
  | .hbm, ⟨70, _⟩ => ⟨S_, .i32⟩
  | .hbm, ⟨71, _⟩ => ⟨S200000, .i32⟩
  | .hbm, ⟨72, _⟩ => ⟨S200000, .i1⟩
  | .hbm, ⟨73, _⟩ => ⟨S_, .i32⟩
  | .hbm, ⟨74, _⟩ => ⟨S200000, .i32⟩
  | .hbm, ⟨75, _⟩ => ⟨S200000, .i32⟩
  | .hbm, ⟨76, _⟩ => ⟨S200000, .i32⟩
  | .hbm, ⟨77, _⟩ => ⟨S200000x1, .i32⟩
  | .hbm, ⟨78, _⟩ => ⟨S200000x128, .f32⟩
  | .hbm, ⟨79, _⟩ => ⟨S_, .i32⟩
  | .hbm, ⟨80, _⟩ => ⟨S200000, .i32⟩
  | .hbm, ⟨81, _⟩ => ⟨S200000, .i1⟩
  | .hbm, ⟨82, _⟩ => ⟨S_, .i32⟩
  | .hbm, ⟨83, _⟩ => ⟨S200000, .i32⟩
  | .hbm, ⟨84, _⟩ => ⟨S200000, .i32⟩
  | .hbm, ⟨85, _⟩ => ⟨S200000, .i32⟩
  | .hbm, ⟨86, _⟩ => ⟨S200000x1, .i32⟩
  | .hbm, ⟨87, _⟩ => ⟨S200000x128, .f32⟩
  | .hbm, ⟨88, _⟩ => ⟨S200000x128, .f32⟩
  | .hbm, ⟨89, _⟩ => ⟨S_, .f32⟩
  | .hbm, ⟨90, _⟩ => ⟨S200000, .f32⟩
  | .hbm, ⟨91, _⟩ => ⟨S200000, .f32⟩
  | .hbm, ⟨92, _⟩ => ⟨S_, .i32⟩
  | .hbm, ⟨93, _⟩ => ⟨S200000, .i32⟩
  | .hbm, ⟨94, _⟩ => ⟨S200000, .i1⟩
  | .hbm, ⟨95, _⟩ => ⟨S_, .i32⟩
  | .hbm, ⟨96, _⟩ => ⟨S200000, .i32⟩
  | .hbm, ⟨97, _⟩ => ⟨S200000, .i32⟩
  | .hbm, ⟨98, _⟩ => ⟨S200000, .i32⟩
  | .hbm, ⟨99, _⟩ => ⟨S200000x1, .i32⟩
  | .hbm, ⟨100, _⟩ => ⟨S200000, .f32⟩
  | .hbm, ⟨101, _⟩ => ⟨S200000, .f32⟩
  | .hbm, ⟨102, _⟩ => ⟨S_, .f32⟩
  | .hbm, ⟨103, _⟩ => ⟨S200000, .f32⟩
  | .hbm, ⟨104, _⟩ => ⟨S200000, .f32⟩
  | .hbm, ⟨105, _⟩ => ⟨S200000, .f32⟩
  | .hbm, ⟨106, _⟩ => ⟨S200000, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S256x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_cst_11 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_12 : Ref sig .tc := ⟨.hbm, 70, rfl⟩
abbrev main_v46 : Ref sig .tc := ⟨.hbm, 71, rfl⟩
abbrev main_v47 : Ref sig .tc := ⟨.hbm, 72, rfl⟩
abbrev main_c_13 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_14 : Ref sig .tc := ⟨.hbm, 79, rfl⟩
abbrev main_v53 : Ref sig .tc := ⟨.hbm, 80, rfl⟩
abbrev main_v54 : Ref sig .tc := ⟨.hbm, 81, rfl⟩
abbrev main_c_15 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_16 : Ref sig .tc := ⟨.hbm, 89, rfl⟩
abbrev main_v61 : Ref sig .tc := ⟨.hbm, 90, rfl⟩
abbrev main_v62 : Ref sig .tc := ⟨.hbm, 91, rfl⟩
abbrev main_c_17 : Ref sig .tc := ⟨.hbm, 92, rfl⟩
abbrev main_v63 : Ref sig .tc := ⟨.hbm, 93, rfl⟩
abbrev main_v64 : Ref sig .tc := ⟨.hbm, 94, rfl⟩
abbrev main_c_18 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_19 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_20 : Ref sig .tc := ⟨.hbm, 107, rfl⟩
abbrev main_v75 : Ref sig .tc := ⟨.hbm, 108, rfl⟩
abbrev main_cst_21 : Ref sig .tc := ⟨.hbm, 109, rfl⟩
abbrev main_v76 : Ref sig .tc := ⟨.hbm, 110, rfl⟩
abbrev main_v77 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 12], ![false, false]⟩

def k0_cond2 (i : grid0.Coords) : BitVec 1 :=
  let arg1 : BitVec 32 := BitVec.ofNat 32 (i 1).val
  let c11_i32 : BitVec 32 := 11#32
  let v17 : BitVec 1 := Scalar.cmpi .eq arg1 c11_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S256x64 : S_.BroadcastsInDim S256x64 (![] : Fin 0 → Fin S256x64.rank)
  bcast_S256x64_S256x64x1_0_1 : S256x64.BroadcastsInDim S256x64x1 (![0, 1] : Fin 2 → Fin S256x64x1.rank)
  bcast_S256x64x1_S256x64x128_0_1_2 : S256x64x1.BroadcastsInDim S256x64x128 (![0, 1, 2] : Fin 3 → Fin S256x64x128.rank)
  bcast_S_S256x64x128 : S_.BroadcastsInDim S256x64x128 (![] : Fin 0 → Fin S256x64x128.rank)
  reducesTo_S256x64x128_S256x128_d1 : S256x64x128.ReducesTo [1] S256x128
  h_S_ : 0 < S_.numel
  bcast_S1500_S1x1500_1 : S1500.BroadcastsInDim S1x1500 (![1] : Fin 1 → Fin S1x1500.rank)
  bcast_S1x1500_S256x1500_0_1 : S1x1500.BroadcastsInDim S256x1500 (![0, 1] : Fin 2 → Fin S256x1500.rank)
  reducesTo_S256x1500_S256_d1 : S256x1500.ReducesTo [1] S256
  bcast_S_S256 : S_.BroadcastsInDim S256 (![] : Fin 0 → Fin S256.rank)
  bcast_S256_S256x1_0 : S256.BroadcastsInDim S256x1 (![0] : Fin 1 → Fin S256x1.rank)
  bcast_S256x1_S256x1500_0_1 : S256x1.BroadcastsInDim S256x1500 (![0, 1] : Fin 2 → Fin S256x1500.rank)
  bcast_S_S256x1500 : S_.BroadcastsInDim S256x1500 (![] : Fin 0 → Fin S256x1500.rank)
  reducesTo_S256x1500_S_d0_1 : S256x1500.ReducesTo [0, 1] S_
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  transposes_S1024x128_p1_0_S128x1024 : S1024x128.Transposes [1, 0] S128x1024
  reduces_S1024x1024_S1024 : S1024x1024.Reduces [1] S1024
  shapeCasts_S1024_S1024x1 : S1024.ShapeCasts S1024x1
  shapeCasts_S12288x1_S12288 : S12288x1.ShapeCasts S12288
  bcast_S_S200000 : S_.BroadcastsInDim S200000 (![] : Fin 0 → Fin S200000.rank)
  bcast_S200000_S200000x1_0 : S200000.BroadcastsInDim S200000x1 (![0] : Fin 1 → Fin S200000x1.rank)
  reducesTo_S200000x128_S200000_d1 : S200000x128.ReducesTo [1] S200000
  reducesTo_S200000_S_d0 : S200000.ReducesTo [0] S_
  gather_S12288x128_S256x64x1_S256x64x128_2_0_n_n_0_2_1128_wf : GatherDims.WF S12288x128 S256x64x1 S256x64x128 [2] [0] [] [0] [] 2 ![1, 128]
  dot_S256x128_S128x1500_S256x1500_1_0_0_1_n_n_wf : DotDims.WF S256x128 S128x1500 S256x1500 [1] [0] [0] [1] [] []
  dot_S1024x128_S128x1024_S1024x1024_1_0_0_1_n_n_wf : DotDims.WF S1024x128 S128x1024 S1024x1024 [1] [0] [0] [1] [] []
  gather_S12288x128_S200000x1_S200000x128_1_0_n_n_0_1_1128_wf : GatherDims.WF S12288x128 S200000x1 S200000x128 [1] [0] [] [0] [] 1 ![1, 128]
  gather_S12288_S200000x1_S200000_n_0_n_n_0_1_1_wf : GatherDims.WF S12288 S200000x1 S200000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S12288x128.size a
  hwx0_0 : ∀ i : grid0.Coords, EltTy.bits .f32 = 32 ∨ (Rect.block (s := S12288x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S12288x128.size a
  hwx0_1 : ∀ i : grid0.Coords, EltTy.bits .f32 = 32 ∨ (Rect.block (s := S12288x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S12288x1.size a
  hwx0_2 : ∀ i : grid0.Coords, EltTy.bits .f32 = 32 ∨ (Rect.block (s := S12288x1) S1024x1.size (cc0_transform_2 i) (hinb0_2 i)).WholeWords (EltTy.packing .f32)

variable [Facts₀]

def gather_S12288x128_S256x64x1_S256x64x128_2_0_n_n_0_2_1128 : GatherDims S12288x128 S256x64x1 S256x64x128 where
  offsetDims := [2]
  collapsedSliceDims := [0]
  operandBatchingDims := []
  startIndicesBatchingDims := []
  startIndexMap := [0]
  indexVectorDim := 2
  sliceSizes := ![1, 128]
  wf := gather_S12288x128_S256x64x1_S256x64x128_2_0_n_n_0_2_1128_wf
def dot_S256x128_S128x1500_S256x1500_1_0_0_1_n_n : DotDims S256x128 S128x1500 S256x1500 where
  lhsContracting := [1]
  rhsContracting := [0]
  lhsNonContracting := [0]
  rhsNonContracting := [1]
  lhsBatch := []
  rhsBatch := []
  wf := dot_S256x128_S128x1500_S256x1500_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def gather_S12288x128_S200000x1_S200000x128_1_0_n_n_0_1_1128 : GatherDims S12288x128 S200000x1 S200000x128 where
  offsetDims := [1]
  collapsedSliceDims := [0]
  operandBatchingDims := []
  startIndicesBatchingDims := []
  startIndexMap := [0]
  indexVectorDim := 1
  sliceSizes := ![1, 128]
  wf := gather_S12288x128_S200000x1_S200000x128_1_0_n_n_0_1_1128_wf
def gather_S12288_S200000x1_S200000_n_0_n_n_0_1_1 : GatherDims S12288 S200000x1 S200000 where
  offsetDims := []
  collapsedSliceDims := [0]
  operandBatchingDims := []
  startIndicesBatchingDims := []
  startIndexMap := [0]
  indexVectorDim := 1
  sliceSizes := ![1]
  wf := gather_S12288_S200000x1_S200000_n_0_n_n_0_1_1_wf

abbrev win0_0 : Pipeline.Window sig grid0 :=
  Pipeline.Window.ofSpec (Memref.whole main_arg4) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S256x64 : Shape := ⟨2, ![256, 64]⟩
abbrev S200000 : Shape := ⟨1, ![200000]⟩
abbrev S256x1500 : Shape := ⟨2, ![256, 1500]⟩
abbrev S12288x128 : Shape := ⟨2, ![12288, 128]⟩
abbrev S128x1500 : Shape := ⟨2, ![128, 1500]⟩
abbrev S1500 : Shape := ⟨1, ![1500]⟩
abbrev S_ : Shape := ⟨0, ![]⟩
abbrev S256x64x1 : Shape := ⟨3, ![256, 64, 1]⟩
abbrev S256x64x128 : Shape := ⟨3, ![256, 64, 128]⟩
abbrev S256x128 : Shape := ⟨2, ![256, 128]⟩
abbrev S1x1500 : Shape := ⟨2, ![1, 1500]⟩
abbrev S256 : Shape := ⟨1, ![256]⟩
abbrev S256x1 : Shape := ⟨2, ![256, 1]⟩
abbrev S128x12288 : Shape := ⟨2, ![128, 12288]⟩
abbrev S12288x12288 : Shape := ⟨2, ![12288, 12288]⟩
abbrev S12288 : Shape := ⟨1, ![12288]⟩
abbrev S200000x1 : Shape := ⟨2, ![200000, 1]⟩
abbrev S200000x128 : Shape := ⟨2, ![200000, 128]⟩

abbrev nBuf : Space → Nat
  | .hbm => 115
  | .vmem => 0
  | .smem => 0
  | _ => 0

abbrev bufTy : (tb : Table) → Fin (tcTables nBuf tb) → BufTy
  | .hbm, ⟨0, _⟩ => ⟨S256x64, .i32⟩
  | .hbm, ⟨1, _⟩ => ⟨S200000, .i32⟩
  | .hbm, ⟨2, _⟩ => ⟨S200000, .i32⟩
  | .hbm, ⟨3, _⟩ => ⟨S256x1500, .f32⟩
  | .hbm, ⟨4, _⟩ => ⟨S12288x128, .f32⟩
  | .hbm, ⟨5, _⟩ => ⟨S128x1500, .f32⟩
  | .hbm, ⟨6, _⟩ => ⟨S1500, .f32⟩
  | .hbm, ⟨7, _⟩ => ⟨S_, .i32⟩
  | .hbm, ⟨8, _⟩ => ⟨S256x64, .i32⟩
  | .hbm, ⟨9, _⟩ => ⟨S256x64, .i1⟩
  | .hbm, ⟨10, _⟩ => ⟨S_, .i32⟩
  | .hbm, ⟨11, _⟩ => ⟨S256x64, .i32⟩
  | .hbm, ⟨12, _⟩ => ⟨S256x64, .i32⟩
  | .hbm, ⟨13, _⟩ => ⟨S256x64, .i32⟩
  | .hbm, ⟨14, _⟩ => ⟨S256x64x1, .i32⟩
  | .hbm, ⟨15, _⟩ => ⟨S256x64x128, .f32⟩
  | .hbm, ⟨16, _⟩ => ⟨S_, .i32⟩
  | .hbm, ⟨17, _⟩ => ⟨S256x64, .i32⟩
  | .hbm, ⟨18, _⟩ => ⟨S256x64, .i1⟩
  | .hbm, ⟨19, _⟩ => ⟨S256x64x1, .i1⟩
  | .hbm, ⟨20, _⟩ => ⟨S_, .f32⟩
  | .hbm, ⟨21, _⟩ => ⟨S_, .f32⟩
  | .hbm, ⟨22, _⟩ => ⟨S256x64x128, .i1⟩
  | .hbm, ⟨23, _⟩ => ⟨S256x64x128, .f32⟩
  | .hbm, ⟨24, _⟩ => ⟨S256x64x128, .f32⟩
  | .hbm, ⟨25, _⟩ => ⟨S_, .f32⟩
  | .hbm, ⟨26, _⟩ => ⟨S256x128, .f32⟩
  | .hbm, ⟨27, _⟩ => ⟨S256x128, .f32⟩
  | .hbm, ⟨28, _⟩ => ⟨S256x1500, .f32⟩
  | .hbm, ⟨29, _⟩ => ⟨S1x1500, .f32⟩
  | .hbm, ⟨30, _⟩ => ⟨S256x1500, .f32⟩
  | .hbm, ⟨31, _⟩ => ⟨S256x1500, .f32⟩
  | .hbm, ⟨32, _⟩ => ⟨S_, .f32⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S256x1, .f32⟩
  | .hbm, ⟨38, _⟩ => ⟨S256x1500, .f32⟩
  | .hbm, ⟨39, _⟩ => ⟨S256x1500, .f32⟩
  | .hbm, ⟨40, _⟩ => ⟨S256x1500, .f32⟩
  | .hbm, ⟨41, _⟩ => ⟨S_, .f32⟩
  | .hbm, ⟨42, _⟩ => ⟨S256, .f32⟩
  | .hbm, ⟨43, _⟩ => ⟨S256x1, .f32⟩
  | .hbm, ⟨44, _⟩ => ⟨S256x1500, .f32⟩
  | .hbm, ⟨45, _⟩ => ⟨S256x1500, .f32⟩
  | .hbm, ⟨46, _⟩ => ⟨S_, .f32⟩
  | .hbm, ⟨47, _⟩ => ⟨S256x1500, .f32⟩
  | .hbm, ⟨48, _⟩ => ⟨S256x1500, .f32⟩
  | .hbm, ⟨49, _⟩ => ⟨S256x1500, .f32⟩
  | .hbm, ⟨50, _⟩ => ⟨S256x1500, .f32⟩
  | .hbm, ⟨51, _⟩ => ⟨S_, .f32⟩
  | .hbm, ⟨52, _⟩ => ⟨S256x1500, .f32⟩
  | .hbm, ⟨53, _⟩ => ⟨S256x1500, .f32⟩
  | .hbm, ⟨54, _⟩ => ⟨S_, .f32⟩
  | .hbm, ⟨55, _⟩ => ⟨S256x1500, .f32⟩
  | .hbm, ⟨56, _⟩ => ⟨S256x1500, .f32⟩
  | .hbm, ⟨57, _⟩ => ⟨S_, .f32⟩
  | .hbm, ⟨58, _⟩ => ⟨S256x1500, .f32⟩
  | .hbm, ⟨59, _⟩ => ⟨S256x1500, .f32⟩
  | .hbm, ⟨60, _⟩ => ⟨S256x1500, .f32⟩
  | .hbm, ⟨61, _⟩ => ⟨S256x1500, .f32⟩
  | .hbm, ⟨62, _⟩ => ⟨S256x1500, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S128x12288, .f32⟩
  | .hbm, ⟨69, _⟩ => ⟨S12288x12288, .f32⟩
  | .hbm, ⟨70, _⟩ => ⟨S12288x12288, .f32⟩
  | .hbm, ⟨71, _⟩ => ⟨S_, .f32⟩
  | .hbm, ⟨72, _⟩ => ⟨S12288, .f32⟩
  | .hbm, ⟨73, _⟩ => ⟨S_, .i32⟩
  | .hbm, ⟨74, _⟩ => ⟨S200000, .i32⟩
  | .hbm, ⟨75, _⟩ => ⟨S200000, .i1⟩
  | .hbm, ⟨76, _⟩ => ⟨S_, .i32⟩
  | .hbm, ⟨77, _⟩ => ⟨S200000, .i32⟩
  | .hbm, ⟨78, _⟩ => ⟨S200000, .i32⟩
  | .hbm, ⟨79, _⟩ => ⟨S200000, .i32⟩
  | .hbm, ⟨80, _⟩ => ⟨S200000x1, .i32⟩
  | .hbm, ⟨81, _⟩ => ⟨S200000x128, .f32⟩
  | .hbm, ⟨82, _⟩ => ⟨S_, .i32⟩
  | .hbm, ⟨83, _⟩ => ⟨S200000, .i32⟩
  | .hbm, ⟨84, _⟩ => ⟨S200000, .i1⟩
  | .hbm, ⟨85, _⟩ => ⟨S_, .i32⟩
  | .hbm, ⟨86, _⟩ => ⟨S200000, .i32⟩
  | .hbm, ⟨87, _⟩ => ⟨S200000, .i32⟩
  | .hbm, ⟨88, _⟩ => ⟨S200000, .i32⟩
  | .hbm, ⟨89, _⟩ => ⟨S200000x1, .i32⟩
  | .hbm, ⟨90, _⟩ => ⟨S200000x128, .f32⟩
  | .hbm, ⟨91, _⟩ => ⟨S200000x128, .f32⟩
  | .hbm, ⟨92, _⟩ => ⟨S_, .f32⟩
  | .hbm, ⟨93, _⟩ => ⟨S200000, .f32⟩
  | .hbm, ⟨94, _⟩ => ⟨S200000, .f32⟩
  | .hbm, ⟨95, _⟩ => ⟨S_, .i32⟩
  | .hbm, ⟨96, _⟩ => ⟨S200000, .i32⟩
  | .hbm, ⟨97, _⟩ => ⟨S200000, .i1⟩
  | .hbm, ⟨98, _⟩ => ⟨S_, .i32⟩
  | .hbm, ⟨99, _⟩ => ⟨S200000, .i32⟩
  | .hbm, ⟨100, _⟩ => ⟨S200000, .i32⟩
  | .hbm, ⟨101, _⟩ => ⟨S200000, .i32⟩
  | .hbm, ⟨102, _⟩ => ⟨S200000x1, .i32⟩
  | .hbm, ⟨103, _⟩ => ⟨S200000, .f32⟩
  | .hbm, ⟨104, _⟩ => ⟨S200000, .f32⟩
  | .hbm, ⟨105, _⟩ => ⟨S_, .f32⟩
  | .hbm, ⟨106, _⟩ => ⟨S200000, .f32⟩
  | .hbm, ⟨107, _⟩ => ⟨S200000, .f32⟩
  | .hbm, ⟨108, _⟩ => ⟨S200000, .f32⟩
  | .hbm, ⟨109, _⟩ => ⟨S200000, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | _, _ => ⟨S256x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_cst_11 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_12 : Ref sig .tc := ⟨.hbm, 71, rfl⟩
abbrev main_v47 : Ref sig .tc := ⟨.hbm, 72, rfl⟩
abbrev main_c_13 : Ref sig .tc := ⟨.hbm, 73, rfl⟩
abbrev main_v48 : Ref sig .tc := ⟨.hbm, 74, rfl⟩
abbrev main_v49 : Ref sig .tc := ⟨.hbm, 75, rfl⟩
abbrev main_c_14 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_15 : Ref sig .tc := ⟨.hbm, 82, rfl⟩
abbrev main_v55 : Ref sig .tc := ⟨.hbm, 83, rfl⟩
abbrev main_v56 : Ref sig .tc := ⟨.hbm, 84, rfl⟩
abbrev main_c_16 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_17 : Ref sig .tc := ⟨.hbm, 92, rfl⟩
abbrev main_v63 : Ref sig .tc := ⟨.hbm, 93, rfl⟩
abbrev main_v64 : Ref sig .tc := ⟨.hbm, 94, rfl⟩
abbrev main_c_18 : Ref sig .tc := ⟨.hbm, 95, rfl⟩
abbrev main_v65 : Ref sig .tc := ⟨.hbm, 96, rfl⟩
abbrev main_v66 : Ref sig .tc := ⟨.hbm, 97, rfl⟩
abbrev main_c_19 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_20 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_21 : Ref sig .tc := ⟨.hbm, 110, rfl⟩
abbrev main_v77 : Ref sig .tc := ⟨.hbm, 111, rfl⟩
abbrev main_cst_22 : Ref sig .tc := ⟨.hbm, 112, rfl⟩
abbrev main_v78 : Ref sig .tc := ⟨.hbm, 113, rfl⟩
abbrev main_v79 : Ref sig .tc := ⟨.hbm, 114, rfl⟩

abbrev nD : Nat := 1
abbrev τ : Topo := Topo.v7x

variable {F : FTy → Type} [FloatOps F]

class Facts₀ : Prop where
  bcast_S_S256x64 : S_.BroadcastsInDim S256x64 (![] : Fin 0 → Fin S256x64.rank)
  bcast_S256x64_S256x64x1_0_1 : S256x64.BroadcastsInDim S256x64x1 (![0, 1] : Fin 2 → Fin S256x64x1.rank)
  bcast_S256x64x1_S256x64x128_0_1_2 : S256x64x1.BroadcastsInDim S256x64x128 (![0, 1, 2] : Fin 3 → Fin S256x64x128.rank)
  bcast_S_S256x64x128 : S_.BroadcastsInDim S256x64x128 (![] : Fin 0 → Fin S256x64x128.rank)
  reducesTo_S256x64x128_S256x128_d1 : S256x64x128.ReducesTo [1] S256x128
  h_S_ : 0 < S_.numel
  bcast_S1500_S1x1500_1 : S1500.BroadcastsInDim S1x1500 (![1] : Fin 1 → Fin S1x1500.rank)
  bcast_S1x1500_S256x1500_0_1 : S1x1500.BroadcastsInDim S256x1500 (![0, 1] : Fin 2 → Fin S256x1500.rank)
  reducesTo_S256x1500_S256_d1 : S256x1500.ReducesTo [1] S256
  bcast_S_S256 : S_.BroadcastsInDim S256 (![] : Fin 0 → Fin S256.rank)
  bcast_S256_S256x1_0 : S256.BroadcastsInDim S256x1 (![0] : Fin 1 → Fin S256x1.rank)
  bcast_S256x1_S256x1500_0_1 : S256x1.BroadcastsInDim S256x1500 (![0, 1] : Fin 2 → Fin S256x1500.rank)
  bcast_S_S256x1500 : S_.BroadcastsInDim S256x1500 (![] : Fin 0 → Fin S256x1500.rank)
  reducesTo_S256x1500_S_d0_1 : S256x1500.ReducesTo [0, 1] S_
  transposes_S12288x128_S128x12288_1_0 : S12288x128.Transposes [1, 0] S128x12288
  reducesTo_S12288x12288_S12288_d1 : S12288x12288.ReducesTo [1] S12288
  bcast_S_S200000 : S_.BroadcastsInDim S200000 (![] : Fin 0 → Fin S200000.rank)
  bcast_S200000_S200000x1_0 : S200000.BroadcastsInDim S200000x1 (![0] : Fin 1 → Fin S200000x1.rank)
  reducesTo_S200000x128_S200000_d1 : S200000x128.ReducesTo [1] S200000
  reducesTo_S200000_S_d0 : S200000.ReducesTo [0] S_
  gather_S12288x128_S256x64x1_S256x64x128_2_0_n_n_0_2_1128_wf : GatherDims.WF S12288x128 S256x64x1 S256x64x128 [2] [0] [] [0] [] 2 ![1, 128]
  dot_S256x128_S128x1500_S256x1500_1_0_0_1_n_n_wf : DotDims.WF S256x128 S128x1500 S256x1500 [1] [0] [0] [1] [] []
  dot_S12288x128_S128x12288_S12288x12288_1_0_0_1_n_n_wf : DotDims.WF S12288x128 S128x12288 S12288x12288 [1] [0] [0] [1] [] []
  gather_S12288x128_S200000x1_S200000x128_1_0_n_n_0_1_1128_wf : GatherDims.WF S12288x128 S200000x1 S200000x128 [1] [0] [] [0] [] 1 ![1, 128]
  gather_S12288_S200000x1_S200000_n_0_n_n_0_1_1_wf : GatherDims.WF S12288 S200000x1 S200000 [] [0] [] [0] [] 1 ![1]

variable [Facts₀]

def gather_S12288x128_S256x64x1_S256x64x128_2_0_n_n_0_2_1128 : GatherDims S12288x128 S256x64x1 S256x64x128 where
  offsetDims := [2]
  collapsedSliceDims := [0]
  operandBatchingDims := []
  startIndicesBatchingDims := []
  startIndexMap := [0]
  indexVectorDim := 2
  sliceSizes := ![1, 128]
  wf := gather_S12288x128_S256x64x1_S256x64x128_2_0_n_n_0_2_1128_wf
def dot_S256x128_S128x1500_S256x1500_1_0_0_1_n_n : DotDims S256x128 S128x1500 S256x1500 where
  lhsContracting := [1]
  rhsContracting := [0]
  lhsNonContracting := [0]
  rhsNonContracting := [1]
  lhsBatch := []
  rhsBatch := []
  wf := dot_S256x128_S128x1500_S256x1500_1_0_0_1_n_n_wf
def dot_S12288x128_S128x12288_S12288x12288_1_0_0_1_n_n : DotDims S12288x128 S128x12288 S12288x12288 where
  lhsContracting := [1]
  rhsContracting := [0]
  lhsNonContracting := [0]
  rhsNonContracting := [1]
  lhsBatch := []
  rhsBatch := []
  wf := dot_S12288x128_S128x12288_S12288x12288_1_0_0_1_n_n_wf
def gather_S12288x128_S200000x1_S200000x128_1_0_n_n_0_1_1128 : GatherDims S12288x128 S200000x1 S200000x128 where
  offsetDims := [1]
  collapsedSliceDims := [0]
  operandBatchingDims := []
  startIndicesBatchingDims := []
  startIndexMap := [0]
  indexVectorDim := 1
  sliceSizes := ![1, 128]
  wf := gather_S12288x128_S200000x1_S200000x128_1_0_n_n_0_1_1128_wf
def gather_S12288_S200000x1_S200000_n_0_n_n_0_1_1 : GatherDims S12288 S200000x1 S200000 where
  offsetDims := []
  collapsedSliceDims := [0]
  operandBatchingDims := []
  startIndicesBatchingDims := []
  startIndexMap := [0]
  indexVectorDim := 1
  sliceSizes := ![1]
  wf := gather_S12288_S200000x1_S200000_n_0_n_n_0_1_1_wf

class Facts : Prop extends Facts₀ where

variable [Facts]
-- ==== Proof.BodyB.lean ====
/-
  The body of the row-normaliser kernel, point by point.

  The grid is 12 x 12; point t = 12 * i + j handles row block i (1024 rows of the embedding table) against
  column block j (another 1024 rows of the same table). The body keeps a [1024, 1] accumulator in a scratch
  buffer:  at j = 0 it is first overwritten with zeros;  at every j it becomes
      acc + rowsum (exp (rows_i * rows_j^T))                      (the payload k0_pay2 rows_i rows_j acc);
  at j = 11 the accumulator is copied into the output block. So there are three control cases, told apart by
  the two conditions of the body, and in each the body is a straight line of loads and whole-buffer stores:
    first column  (j = 0) : accumulator := k0_pay2 x0 x1 zeros
    middle column (0 < j < 11) : accumulator := k0_pay2 x0 x1 acc
    last column   (j = 11) : accumulator := k0_pay2 x0 x1 acc, and the output block := the same value.
  Every store writes the whole [1024, 1] buffer, so what a buffer holds afterwards is the last payload stored,
  whatever it held before.
-/
import proofs.«145238_j11793980195385_1_alg».proof.Proof.Gen.Kernel.Launch
import proofs.«145238_j11793980195385_1_alg».proof.Proof.Gen.Kernel.Skeleton
import proofs.«145238_j11793980195385_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions of the body, as functions of the grid point -/

/-- "This is the first column block": the condition under which the accumulator is zeroed. -/
abbrev condZ (i : grid0.Coords) : Prop := (Scalar.cmpi .ne (Scalar.extui (Scalar.cmpi .eq (BitVec.ofNat 32 (i 1).val) 0#32)) 0#32) = 1#1
/-- "This is the last column block": the condition under which the accumulator is copied out. -/
abbrev condL (i : grid0.Coords) : Prop := k0_cond2 i = 1#1

/-- The first-column condition holds exactly at the points 12 * i. -/
theorem hcondZ : ∀ t : Fin cfg0.N, condZ (grid0.coords t) ↔ t.val % 12 = 0 :=
  (by decide +kernel : ∀ t : Fin grid0.N, condZ (grid0.coords t) ↔ t.val % 12 = 0)
/-- The last-column condition holds exactly at the points 12 * i + 11. -/
theorem hcondL : ∀ t : Fin cfg0.N, condL (grid0.coords t) ↔ t.val % 12 = 11 :=
  (by decide +kernel : ∀ t : Fin grid0.N, condL (grid0.coords t) ↔ t.val % 12 = 11)

/-- The input windows are never idle. -/
theorem live0 : ∀ t : Fin cfg0.N, cfg0.idle 0 (grid0.coords t) = false := fun _ => rfl
theorem live1 : ∀ t : Fin cfg0.N, cfg0.idle 1 (grid0.coords t) = false := fun _ => rfl
/-- The output window is idle away from the last column (nothing is stored into it there) -/
theorem idle2 : ∀ t : Fin cfg0.N, ¬condL (grid0.coords t) → cfg0.idle 2 (grid0.coords t) = true := by decide +kernel
/-- and live at the last column. -/
theorem live2 : ∀ t : Fin cfg0.N, condL (grid0.coords t) → cfg0.idle 2 (grid0.coords t) = false := by decide +kernel

/-- The offsets of every access of the body are zero. -/
theorem off_zero : (![0, 0] : Fin 2 → Nat) = fun _ => 0 := by funext a; fin_cases a <;> rfl

/-! ## The body in each control case -/

set_option maxHeartbeats 1000000 in
/-- First column: from the two input blocks `x0`, `x1` and the accumulator at anything, the body leaves the
    accumulator at `k0_pay2 x0 x1 zeros`; it does not touch the output buffer. -/
theorem sound_first (c : Dev nD) (E : Set ℕ) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1024x1 .f32) (harg5 : arg5.IsWhole)
    (hc0 : condZ i) (hc1 : ¬condL i)
    (x0 x1 : Vec F S1024x128 .f32) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
              ∗ owns (c : Thread nD τ) arg5 fullShare (k0_pay2 x0 x1 (k0_pay1 (F := F)))) -∗ K ⟨⟩))
      ⊢ wp frame (wpE (defs₀ (F := F)) Variants.none c none) E (cc0__norms_kernel i arg2 harg2 arg3 harg3 arg4 harg4 arg5 harg5) K := by
  simp only [cc0__norms_kernel_eq_skeleton]; unfold cc0__norms_kernel_skel
  unfold owns
  iintro ⟨⟨%f0, %hf0, H0⟩, ⟨%f1, %hf1, H1⟩, ⟨%d5, %f5, -, H5⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  rw [View.read_writes_eq_canon _ _ _ (fun y => ⟨_, List.mem_cons_self, View.mem_set_unit_zero off_zero inb_S1024x1_S1024x1_0_0 y⟩)]
  rw [View.canon_cons_unit_zero off_zero]
  sl_unfold_run_names
  rw [View.readCov_unit_zero _ off_zero]
  simp only [View.readAt_eq_ld, View.ld_unit_zero (S := S1024x128) off_zero, View.ld_unit_zero (S := S1024x1) off_zero]

set_option maxHeartbeats 1000000 in
/-- A middle column: the accumulator goes from `acc` to `k0_pay2 x0 x1 acc`; the output buffer is not touched. -/
theorem sound_middle (c : Dev nD) (E : Set ℕ) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1024x1 .f32) (harg5 : arg5.IsWhole)
    (hc0 : ¬condZ i) (hc1 : ¬condL i)
    (x0 x1 : Vec F S1024x128 .f32) (acc : Vec F S1024x1 .f32) (K : PUnit → sProp 𝕄) :
    iprop(owns (c : Thread nD τ) arg2 fullShare x0 ∗ owns (c : Thread nD τ) arg3 fullShare x1 ∗ owns (c : Thread nD τ) arg5 fullShare acc
        ∗ (iprop(owns (c : Thread nD τ) arg2 fullShare x0 ∗ owns (c : Thread nD τ) arg3 fullShare x1
              ∗ owns (c : Thread nD τ) arg5 fullShare (k0_pay2 x0 x1 acc)) -∗ K ⟨⟩))
      ⊢ wp frame (wpE (defs₀ (F := F)) Variants.none c none) E (cc0__norms_kernel i arg2 harg2 arg3 harg3 arg4 harg4 arg5 harg5) K := by
  simp only [cc0__norms_kernel_eq_skeleton]; unfold cc0__norms_kernel_skel
  unfold owns
  iintro ⟨⟨%f0, %hf0, H0⟩, ⟨%f1, %hf1, H1⟩, ⟨%f5, %hf5, H5⟩, Hk⟩
  subst hf0; subst hf1; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  rw [View.read_writes_eq_canon _ _ _ (fun y => ⟨_, List.mem_cons_self, View.mem_set_unit_zero off_zero inb_S1024x1_S1024x1_0_0 y⟩)]
  rw [View.canon_cons_unit_zero off_zero]
  sl_unfold_run_names
  simp only [View.readAt_eq_ld, View.ld_unit_zero (S := S1024x128) off_zero, View.ld_unit_zero (S := S1024x1) off_zero]

set_option maxHeartbeats 1000000 in
/-- Last column: the accumulator goes from `acc` to `k0_pay2 x0 x1 acc`, and the output buffer, whatever it held,
    ends at that same value. -/
theorem sound_last (c : Dev nD) (E : Set ℕ) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1024x1 .f32) (harg5 : arg5.IsWhole)
    (hc0 : ¬condZ i) (hc1 : condL i)
    (x0 x1 : Vec F S1024x128 .f32) (acc : Vec F S1024x1 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare acc
        ∗ (iprop(owns (c : Thread nD τ) arg2 fullShare x0 ∗ owns (c : Thread nD τ) arg3 fullShare x1
              ∗ owns (c : Thread nD τ) arg4 fullShare (k0_pay2 x0 x1 acc)
              ∗ owns (c : Thread nD τ) arg5 fullShare (k0_pay2 x0 x1 acc)) -∗ K ⟨⟩))
      ⊢ wp frame (wpE (defs₀ (F := F)) Variants.none c none) E (cc0__norms_kernel i arg2 harg2 arg3 harg3 arg4 harg4 arg5 harg5) K := by
  simp only [cc0__norms_kernel_eq_skeleton]; unfold cc0__norms_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [View.read_writes_eq_canon _ _ _ (fun y => ⟨_, List.mem_cons_self, View.mem_set_unit_zero off_zero inb_S1024x1_S1024x1_0_0 y⟩)]
    rw [View.canon_cons_unit_zero off_zero, View.readCov_unit_zero _ off_zero]
    simp only [View.readAt_eq_ld, View.ld_unit_zero (S := S1024x128) off_zero, View.ld_unit_zero (S := S1024x1) off_zero]
  iexists _; isplitr
  swap; · iexact H5
  ipureintro
  sl_unfold_run_names
  rw [View.read_writes_eq_canon _ _ _ (fun y => ⟨_, List.mem_cons_self, View.mem_set_unit_zero off_zero inb_S1024x1_S1024x1_0_0 y⟩)]
  rw [View.canon_cons_unit_zero off_zero]
  sl_unfold_run_names
  simp only [View.readAt_eq_ld, View.ld_unit_zero (S := S1024x128) off_zero, View.ld_unit_zero (S := S1024x1) off_zero]

end Cert.Kernel.Body

end
-- ==== Proof.DatB.lean ====
/-
  The proof data of the row-normaliser's pipeline and the body obligation at every grid point.

  At point t = 12 * i + j the two input windows hold row block i and row block j of the embedding table as the
  region finds it. What the scratch accumulator holds AFTER point t is defined by recursion on t:
      accAt t = k0_pay2 (block_i) (block_j) (if j = 0 then zeros else accAt (t - 1)),
  and the invariant between points says exactly that: before the first point the scratch holds anything, before
  point t > 0 it holds accAt (t - 1). The output window's buffer is only written at j = 11, with accAt t; at the
  other points the body leaves it as it found it.
-/
import proofs.«145238_j11793980195385_1_alg».proof.Proof.BodyB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the TensorCore's buffers when the region is entered, and the shares of the windows' arrays
variable (V : (c : Dev nD) → (b : Ref sig .tc) → Buf (Elt F) ((c : Thread nD τ).loc b))
variable (q : Fin 3 → PosShare TreeShare)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched the block index has not moved since the point before. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The accumulator, point by point -/

/-- What the scratch accumulator holds after point `n`: one accumulate step from zeros at the first column block,
    from what the point before left otherwise. -/
def accAt (c : Dev nD) : (n : ℕ) → n < cfg0.N → Vec F S1024x1 .f32
  | 0, h => k0_pay2 (iblk V c 0 ⟨0, h⟩) (iblk V c 1 ⟨0, h⟩) (k0_pay1 (F := F))
  | n + 1, h => k0_pay2 (iblk V c 0 ⟨n + 1, h⟩) (iblk V c 1 ⟨n + 1, h⟩)
      (if (n + 1) % 12 = 0 then (k0_pay1 (F := F)) else accAt c n (Nat.lt_of_succ_lt h))

/-- At a first column block the accumulator restarts from zeros. -/
theorem accAt_first (c : Dev nD) (t : Fin cfg0.N) (hz : t.val % 12 = 0) :
    accAt V c t.val t.isLt = k0_pay2 (iblk V c 0 t) (iblk V c 1 t) (k0_pay1 (F := F)) := by
  obtain ⟨n, hn⟩ := t
  cases n with
  | zero => rfl
  | succ n => show k0_pay2 _ _ (if (n + 1) % 12 = 0 then _ else _) = _; rw [if_pos hz]

/-- Elsewhere it continues from the point before. -/
theorem accAt_next (c : Dev nD) (t : Fin cfg0.N) (hz : ¬ t.val % 12 = 0) :
    accAt V c t.val t.isLt = k0_pay2 (iblk V c 0 t) (iblk V c 1 t)
      (accAt V c (t.val - 1) (Nat.lt_of_le_of_lt (Nat.sub_le _ _) t.isLt)) := by
  obtain ⟨n, hn⟩ := t
  cases n with
  | zero => exact absurd (Nat.zero_mod 12) hz
  | succ n => show k0_pay2 _ _ (if (n + 1) % 12 = 0 then _ else _) = _; rw [if_neg hz]; rfl

/-! ## The invariant between points -/

/-- The scratch operand as a memref. -/
abbrev scM : Memref sig .tc .vmem S1024x1 .f32 := Memref.whole cc0_scratch0

/-- Before point `n`: at the start the scratch at anything; afterwards the scratch at what the point before left;
    always the generator register at some state (the body never touches it). -/
def PhiS (c : Dev nD) : (n : ℕ) → n ≤ cfg0.N → sProp 𝕄
  | 0, _ => Pipeline.ΦA spec0 c
  | n + 1, hn => iprop(owns (c : Thread nD τ) scM fullShare (accAt V c n hn) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM fullShare (accAt V c n hn) ∗ (∃ r, prngReg c r)) := rfl

theorem PhiS_pos (c : Dev nD) (n : ℕ) (h : n ≤ cfg0.N) (hz : n ≠ 0) :
    PhiS V c n h = iprop(owns (c : Thread nD τ) scM fullShare (accAt V c (n - 1) (by omega)) ∗ (∃ r, prngReg c r)) := by
  cases n with
  | zero => exact absurd rfl hz
  | succ n => rfl

/-- The start invariant spelt out: the one scratch buffer owned at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The proof data -/

/-- The pipeline's proof data on core `c`: the arrays as the region finds them; after the body each input's
    buffer at its block and the output's at the accumulator; the invariant above; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => accAt V c t.val t.isLt
  Φ t := PhiS V c t.val (Nat.le_of_lt_succ t.isLt)
  q := q
  owed _ := 0

theorem A_eq (c : Dev nD) (w : Fin cfg0.W) : (dat V q c).A w = V c (Pipeline.arrRef spec0 w) := by
  dsimp only [dat]
theorem q_eq (c : Dev nD) : (dat V q c).q = q := by dsimp only [dat]

theorem PhiS_castSucc (c : Dev nD) (t : Fin cfg0.N) :
    (dat V q c).Φ t.castSucc = PhiS V c t.val (Nat.le_of_lt t.isLt) := by
  dsimp only [dat]; simp only [Fin.coe_castSucc]

theorem after0 (c : Dev nD) (t : Fin cfg0.N) : (dat V q c).after 0 t = iblk V c 0 t := by dsimp only [dat]
theorem after1 (c : Dev nD) (t : Fin cfg0.N) : (dat V q c).after 1 t = iblk V c 1 t := by dsimp only [dat]
theorem after2 (c : Dev nD) (t : Fin cfg0.N) : (dat V q c).after 2 t = accAt V c t.val t.isLt := by dsimp only [dat]

theorem before0 (c : Dev nD) (t : Fin cfg0.N) (d) : (dat V q c).before 0 t d = iblk V c 0 t :=
  before0_of V (dat V q c) (A_eq V q c 0) (after0 V q c) t d
theorem before1 (c : Dev nD) (t : Fin cfg0.N) (d) : (dat V q c).before 1 t d = iblk V c 1 t :=
  before1_of V (dat V q c) (A_eq V q c 1) (after1 V q c) t d

/-! ## The body obligation -/

/-- What the body is called with at point `t`, the windows one by one, -/
def bodyPre (c : Dev nD) (t : Fin cfg0.N) : sProp 𝕄 :=
  iprop((dat V q c).Φ t.castSucc ∗ (dat V q c).owesAt () t.castSucc
    ∗ (∃ d, owns (c : Thread nD τ) (st0_0 t) fullShare ((dat V q c).before 0 t d))
    ∗ (∃ d, owns (c : Thread nD τ) (st0_1 t) fullShare ((dat V q c).before 1 t d))
    ∗ (∃ d, owns (c : Thread nD τ) (st0_2 t) fullShare ((dat V q c).before 2 t d)))

/-- and what it returns. -/
def bodyPost (c : Dev nD) (t : Fin cfg0.N) : sProp 𝕄 :=
  iprop((dat V q c).Φ t.succ ∗ (dat V q c).owesAt () t.succ
    ∗ (dat V q c).leavesExact 0 t
    ∗ (dat V q c).leavesExact 1 t
    ∗ (dat V q c).leavesExact 2 t)

theorem leaves0 (c : Dev nD) (t : Fin cfg0.N) :
    (dat V q c).leavesExact 0 t = owns (c : Thread nD τ) (st0_0 t) fullShare (iblk V c 0 t) := by
  unfold Dat.leavesExact; rw [live0 t, after0]
theorem leaves1 (c : Dev nD) (t : Fin cfg0.N) :
    (dat V q c).leavesExact 1 t = owns (c : Thread nD τ) (st0_1 t) fullShare (iblk V c 1 t) := by
  unfold Dat.leavesExact; rw [live1 t, after1]

set_option maxHeartbeats 4000000 in
/-- The body at any point, by the column it is in: the input buffers hold their blocks; the invariant hands over the
    accumulator at what the point before left (at anything at the very first point) and takes it back one step later;
    the output buffer is passed through untouched except in the last column, where it ends at the accumulator. -/
theorem sound_body (c : Dev nD) (t : Fin cfg0.N) :
    bodyPre V q c t ⊢ wp frame (wpE (defs₀ (F := F)) Variants.none c none) Set.univ (bodyAt0 t) (fun _ => bodyPost V q c t) := by
  unfold bodyPre bodyPost bodyAt0
  simp only [before0, before1]
  rw [show (dat V q c).owesAt () t.succ = (dat V q c).owesAt () t.castSucc from rfl]
  rw [show (dat V q c).Φ t.succ = PhiS V c (t.val + 1) t.isLt from rfl, PhiS_succ, leaves0, leaves1, PhiS_castSucc]
  have hN : t.val < 144 := lt_of_lt_of_eq t.isLt (show cfg0.N = 144 from N_0)
  by_cases hz : t.val % 12 = 0
  · have hL : ¬ t.val % 12 = 11 := by omega
    have hcZ : condZ (grid0.coords t) := (hcondZ t).mpr hz
    have hcL : ¬ condL (grid0.coords t) := fun h => hL ((hcondL t).mp h)
    rw [Dat.leavesExact_idle (dat V q c) 2 t (idle2 t hcL) (Bool.eq_false_iff.mpr fun h => hL ((flush0_2 t).mp h))]
    rw [accAt_first V c t hz]
    by_cases h0 : t.val = 0
    · rw [PhiS_zero V c _ _ h0, PhiA_eq]
      iintro ⟨⟨HS, Hg⟩, Ho, ⟨%d0, H0⟩, ⟨%d1, H1⟩, H2⟩
      iapply (sound_first c Set.univ (grid0.coords t) _ _ _ _ _ _ _ _ hcZ hcL (iblk V c 0 t) (iblk V c 1 t) _)
      isplitl [H0]; · iexact H0
      isplitl [H1]; · iexact H1
      isplitl [HS]; · iexact HS
      iintro ⟨H0, H1, HS⟩
      isplitl [HS Hg]
      · isplitl [HS]; · iexact HS
        iexact Hg
      isplitl [Ho]; · iexact Ho
      isplitl [H0]; · iexact H0
      isplitl [H1]; · iexact H1
      iexact H2
    · rw [PhiS_pos V c _ _ h0]
      iintro ⟨⟨HS, Hg⟩, Ho, ⟨%d0, H0⟩, ⟨%d1, H1⟩, H2⟩
      iapply (sound_first c Set.univ (grid0.coords t) _ _ _ _ _ _ _ _ hcZ hcL (iblk V c 0 t) (iblk V c 1 t) _)
      isplitl [H0]; · iexact H0
      isplitl [H1]; · iexact H1
      isplitl [HS]; · iexists _; iexact HS
      iintro ⟨H0, H1, HS⟩
      isplitl [HS Hg]
      · isplitl [HS]; · iexact HS
        iexact Hg
      isplitl [Ho]; · iexact Ho
      isplitl [H0]; · iexact H0
      isplitl [H1]; · iexact H1
      iexact H2
  · have h0 : t.val ≠ 0 := fun h => hz (by rw [h])
    have hcZ : ¬ condZ (grid0.coords t) := fun h => hz ((hcondZ t).mp h)
    rw [PhiS_pos V c _ _ h0, accAt_next V c t hz]
    by_cases hL : t.val % 12 = 11
    · have hcL : condL (grid0.coords t) := (hcondL t).mpr hL
      rw [show (dat V q c).leavesExact 2 t = owns (c : Thread nD τ) (st0_2 t) fullShare ((dat V q c).after 2 t) from by
        unfold Dat.leavesExact; rw [live2 t hcL], after2, accAt_next V c t hz]
      iintro ⟨⟨HS, Hg⟩, Ho, ⟨%d0, H0⟩, ⟨%d1, H1⟩, ⟨%d2, H2⟩⟩
      iapply (sound_last c Set.univ (grid0.coords t) _ _ _ _ _ _ _ _ hcZ hcL (iblk V c 0 t) (iblk V c 1 t) _ _)
      isplitl [H0]; · iexact H0
      isplitl [H1]; · iexact H1
      isplitl [H2]; · iexists _; iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexact H2
    · have hcL : ¬ condL (grid0.coords t) := fun h => hL ((hcondL t).mp h)
      rw [Dat.leavesExact_idle (dat V q c) 2 t (idle2 t hcL) (Bool.eq_false_iff.mpr fun h => hL ((flush0_2 t).mp h))]
      iintro ⟨⟨HS, Hg⟩, Ho, ⟨%d0, H0⟩, ⟨%d1, H1⟩, H2⟩
      iapply (sound_middle c Set.univ (grid0.coords t) _ _ _ _ _ _ _ _ hcZ hcL (iblk V c 0 t) (iblk V c 1 t) _ _)
      isplitl [H0]; · iexact H0
      isplitl [H1]; · iexact H1
      isplitl [HS]; · iexact HS
      iintro ⟨H0, H1, HS⟩
      isplitl [HS Hg]
      · isplitl [HS]; · iexact HS
        iexact Hg
      isplitl [Ho]; · iexact Ho
      isplitl [H0]; · iexact H0
      isplitl [H1]; · iexact H1
      iexact H2

/-- The library's body obligation, at every point. -/
theorem body_obligation (c : Dev nD) : BodyObligation (dat (F := F) V q c) (defs₀ (F := F)) Variants.none () Set.univ := fun t => by
  rw [bigSep_W0, bigSep_W0]
  exact sound_body V q c t

/-- What the launch hands the region is the invariant before the first point. -/
theorem hin (c : Dev nD) : Pipeline.ΦA spec0 c ⊢ (dat V q c).Φ 0 := by
  rw [show (dat V q c).Φ 0 = PhiS V c 0 (Nat.zero_le _) from rfl, PhiS_zero V c 0 _ rfl]
  try exact Idealize.SL.BI.Entails.refl _

/-- After the last point the invariant gives the scratch and the register back, the accumulator's value forgotten. -/
theorem hout (c : Dev nD) : (dat V q c).Φ (Fin.last cfg0.N) ⊢ Pipeline.ΦA spec0 c := by
  rw [show (dat V q c).Φ (Fin.last cfg0.N) = PhiS V c cfg0.N (Nat.le_refl _) from rfl,
    PhiS_pos V c _ _ (by rw [show cfg0.N = 144 from N_0]; decide), PhiA_eq]
  iintro ⟨HS, Hg⟩
  isplitl [HS]
  · iexists _; iexact HS
  iexact Hg

end Cert.Kernel.Body

end
-- ==== Proof.SharedArraysB.lean ====
import proofs.«145238_j11793980195385_1_alg».proof.Proof.Gen.Kernel.Launch
import Idealize.ShloMosaic.Lib.Pipeline.RegionsLoop
import Idealize.ShloMosaic.Lib.Pipeline.FrameSuffix

noncomputable section

namespace Cert.Kernel.Shared

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

/-! # One array behind two input windows: the shares, and the arrays in and out of the unscoped buffers

Windows 0 and 1 both read the array `main_arg4`; window 2 writes `main_v44`. The full share of `main_arg4` is
dealt to the two reading windows as its left and right halves, which compose back to the full share. -/

/-- The left half of the full share: window 0's share of the array it reads. -/
abbrev qL : PosShare TreeShare := fullShare.left
/-- The right half of the full share: window 1's share of the same array. -/
abbrev qR : PosShare TreeShare := fullShare.right
/-- The two halves compose to the full share. -/
theorem qL_op_qR : fullShare ∈ PCS.op qL qR := PosShare.mem_left_op_right fullShare

/-- The share each window holds its array at: the two readers of `main_arg4` a half each, the writer of `main_v44`
    the full share (which `Dat.share` gives an output window whatever is stated here). -/
abbrev qIn : Fin 3 → PosShare TreeShare :=
  fun | 0 => qL | 1 => qR | 2 => fullShare | ⟨_ + 3, h⟩ => absurd h (Nat.not_lt.2 (Nat.le_add_left _ _))

/-- The distinct buffers behind the three windows' arrays are two. -/
theorem arrRefs : Finset.univ.image (Pipeline.arrRef spec0) = {main_arg4, main_v44} := by decide

/-- The buffers behind the windows' arrays, whole at the full share, are the two points-to facts. -/
theorem arrBufs_eq (c : Dev nD) (V : (b : Ref sig .tc) → Buf (Elt F) ((c : Thread nD τ).loc b)) :
    (Pipeline.arrBufs spec0 c V : sProp 𝕄)
      = iprop((((c : Thread nD τ).loc main_arg4) ↦{fullShare} V main_arg4) ∗ (((c : Thread nD τ).loc main_v44) ↦{fullShare} V main_v44)) := by
  unfold Pipeline.arrBufs
  rw [arrRefs, bigSep_insert (by decide), bigSep_singleton]
  rfl

/-- A core's unscoped buffers are the buffers behind the windows' arrays and the rest. -/
theorem unscopedBufs_split (c : Dev nD) (V : (b : Ref sig .tc) → Buf (Elt F) ((c : Thread nD τ).loc b)) :
    (unscopedBufs c V : sProp 𝕄) = iprop(Pipeline.arrBufs spec0 c V ∗ Pipeline.unscopedRest spec0 c V) :=
  Pipeline.unscopedBufs_split₀ cfgs 0 Gen.winFacts₀0.arr_unscoped c V

section Arrays
variable {c : Dev nD} (dat : Dat τ (Elt F) Unit ℕ (UR sig nD τ) ℕ cfg0 c)

theorem share0 (hq : ∀ w, dat.q w = qIn w) : dat.share 0 = qL := by
  unfold Dat.share; rw [hq]; rfl
theorem share1 (hq : ∀ w, dat.q w = qIn w) : dat.share 1 = qR := by
  unfold Dat.share; rw [hq]; rfl
theorem share2 : dat.share 2 = fullShare := by
  unfold Dat.share; rfl

/-- The pipeline's arrays at contents `X`, window by window: `main_arg4` at each half, `main_v44` at the full share. -/
theorem arrays_eq (hq : ∀ w, dat.q w = qIn w)
    (X : (w : Fin cfg0.W) → Buf (Elt F) ((cfg0.win w).arr.view.loc (c : Thread nD τ))) :
    (dat.arrays X : sProp 𝕄)
      = iprop((((c : Thread nD τ).loc main_arg4) ↦{qL} X 0) ∗ (((c : Thread nD τ).loc main_arg4) ↦{qR} X 1)
          ∗ (((c : Thread nD τ).loc main_v44) ↦{fullShare} X 2)) := by
  unfold Dat.arrays
  rw [Gen.bigSep_W0, (Gen.arr_whole0 0).set_eq_univ, (Gen.arr_whole0 2).set_eq_univ,
    share0 dat hq, share1 dat hq, share2 dat]
end Arrays

/-! ## ENTRY: the arrays split out of the unscoped buffers, `main_arg4` halved between its two readers -/

/-- A core's unscoped buffers at contents `V` are the pipeline's arrays at the proof data's entry contents — read
    off `V` (`hA`), `main_arg4` held at the left half by window 0 and at the right half by window 1 (`hq`),
    `main_v44` at the full share — and the unscoped rest. -/
theorem arrays_of_unscopedBufs (c : Dev nD) (V : (b : Ref sig .tc) → Buf (Elt F) ((c : Thread nD τ).loc b))
    (dat : Dat τ (Elt F) Unit ℕ (UR sig nD τ) ℕ cfg0 c)
    (hA : ∀ w, dat.A w = V (Pipeline.arrRef spec0 w)) (hq : ∀ w, dat.q w = qIn w) :
    (unscopedBufs c V : sProp 𝕄) ⊢ iprop(dat.arrays (dat.arrAt · 0) ∗ Pipeline.unscopedRest spec0 c V) := by
  rw [unscopedBufs_split c V, arrBufs_eq c V, arrays_eq dat hq,
    show dat.arrAt 0 0 = V main_arg4 from hA 0, show dat.arrAt 1 0 = V main_arg4 from hA 1,
    show dat.arrAt 2 0 = V main_v44 from hA 2]
  iintro ⟨⟨Ha, Hv⟩, Hrest⟩
  ihave H := (pointsTo_share qL_op_qR).1 $$ Ha
  icases H with ⟨H0, H1⟩
  isplitr [Hrest]
  · isplitl [H0]; · iexact H0
    isplitl [H1]; · iexact H1
    iexact Hv
  iexact Hrest

/-! ## EXIT: the arrays put back among the unscoped buffers, the halves of `main_arg4` joined

An input window's array is never written, so windows 0 and 1 hold `main_arg4` at the end at the contents they
entered with; the two halves then carry the same contents and join to the full share. -/

/-- The pipeline's arrays at the contents it leaves and the unscoped rest at `V` are the core's unscoped buffers at
    any valuation `V'` that has each array at what the pipeline leaves (`hF`) and agrees with `V` off the arrays
    (`hrest`). -/
theorem unscopedBufs_of_arrays (c : Dev nD) (V V' : (b : Ref sig .tc) → Buf (Elt F) ((c : Thread nD τ).loc b))
    (dat : Dat τ (Elt F) Unit ℕ (UR sig nD τ) ℕ cfg0 c) (hq : ∀ w, dat.q w = qIn w)
    (hF : ∀ w, dat.arrAt w cfg0.N = V' (Pipeline.arrRef spec0 w))
    (hrest : ∀ b, b ∉ Finset.univ.image (Pipeline.arrRef spec0) → V' b = V b) :
    iprop(dat.arrays (dat.arrAt · cfg0.N) ∗ Pipeline.unscopedRest spec0 c V) ⊢ (unscopedBufs c V' : sProp 𝕄) := by
  have hR : (Pipeline.unscopedRest spec0 c V : sProp 𝕄) = Pipeline.unscopedRest spec0 c V' := by
    unfold Pipeline.unscopedRest
    exact bigSep_congr fun b hb => by rw [hrest b (Finset.mem_sdiff.mp hb).2]
  rw [unscopedBufs_split c V', arrBufs_eq c V', arrays_eq dat hq, hR,
    show dat.arrAt 0 cfg0.N = V' main_arg4 from hF 0, show dat.arrAt 1 cfg0.N = V' main_arg4 from hF 1,
    show dat.arrAt 2 cfg0.N = V' main_v44 from hF 2]
  iintro ⟨⟨H0, H1, Hv⟩, Hrest⟩
  isplitr [Hrest]
  · isplitr [Hv]
    · iapply (pointsTo_share qL_op_qR).2
      isplitl [H0]; · iexact H0
      iexact H1
    iexact Hv
  iexact Hrest

/-! ## The exit valuation: the entry valuation updated at the output array -/

/-- The buffer contents `W` with `main_v44` at `X`: what the region leaves, its only output array being `main_v44`. -/
def exitVal (W : Valuation τ sig (Elt F)) (X : (Proc.devRef (τ := τ) .tc main_v44).ty.Contents (Elt F)) : Valuation τ sig (Elt F) :=
  Function.update W (Proc.devRef .tc main_v44) X

theorem exitVal_arr (W : Valuation τ sig (Elt F)) (X : (Proc.devRef (τ := τ) .tc main_v44).ty.Contents (Elt F)) :
    exitVal W X (Proc.devRef .tc main_v44) = X := by
  unfold exitVal; exact Function.update_self _ _ _

theorem exitVal_of_ne (W : Valuation τ sig (Elt F)) (X : (Proc.devRef (τ := τ) .tc main_v44).ty.Contents (Elt F))
    (b : Ref sig .tc) (hb : b ≠ main_v44) : exitVal W X (Proc.devRef .tc b) = W (Proc.devRef .tc b) := by
  unfold exitVal
  exact Function.update_of_ne (fun e => hb (Proc.devRef_injective _ e)) _ _

/-- No input window's array is `main_v44`, and the two input windows' array is `main_arg4`. -/
theorem arg4_ne_v44 : (main_arg4 : Ref sig .tc) ≠ main_v44 := by decide

/-- At the exit valuation each array holds what the pipeline leaves: `main_v44` by definition, `main_arg4` —
    an input's array, never written — what it held at entry (`hA`), where the exit valuation is the entry one. -/
theorem exitVal_hF {c : Dev nD} (W : Valuation τ sig (Elt F)) (dat : Dat τ (Elt F) Unit ℕ (UR sig nD τ) ℕ cfg0 c)
    (hA : ∀ w, dat.A w = W (Proc.devRef .tc (Pipeline.arrRef spec0 w))) (w : Fin cfg0.W) :
    dat.arrAt w cfg0.N = exitVal W (dat.arrAt 2 cfg0.N) (Proc.devRef .tc (Pipeline.arrRef spec0 w)) :=
  match w with
  | 0 => ((dat.arrAt_in 0 rfl _).trans (hA 0)).trans (exitVal_of_ne W _ main_arg4 arg4_ne_v44).symm
  | 1 => ((dat.arrAt_in 1 rfl _).trans (hA 1)).trans (exitVal_of_ne W _ main_arg4 arg4_ne_v44).symm
  | 2 => (exitVal_arr W _).symm
  | ⟨_ + 3, h⟩ => absurd h (Nat.not_lt.2 (Nat.le_add_left _ _))

/-- Off the windows' arrays the exit valuation is the entry one. -/
theorem exitVal_hrest (W : Valuation τ sig (Elt F)) (X : (Proc.devRef (τ := τ) .tc main_v44).ty.Contents (Elt F))
    (b : Ref sig .tc) (hb : b ∉ Finset.univ.image (Pipeline.arrRef spec0)) :
    exitVal W X (Proc.devRef .tc b) = W (Proc.devRef .tc b) :=
  exitVal_of_ne W X b fun e => hb (by rw [arrRefs, e]; exact Finset.mem_insert_of_mem (Finset.mem_singleton_self _))

/-! ## The two steps over a thread state that holds every unscoped buffer at a valuation -/

/-- ENTRY over `StableHlo.held`: every unscoped buffer at `W` is the pipeline's arrays at the entry contents and the
    unscoped rest at `W`. -/
theorem arrays_of_held (c : Dev nD) (W : Valuation τ sig (Elt F)) (dat : Dat τ (Elt F) Unit ℕ (UR sig nD τ) ℕ cfg0 c)
    (hA : ∀ w, dat.A w = W (Proc.devRef .tc (Pipeline.arrRef spec0 w))) (hq : ∀ w, dat.q w = qIn w) :
    (StableHlo.held (c : Thread nD τ) (Pipeline.ucRefs τ sig) W : sProp 𝕄)
      ⊢ iprop(dat.arrays (dat.arrAt · 0) ∗ Pipeline.unscopedRest spec0 c fun b => W (Proc.devRef .tc b)) := by
  rw [← Pipeline.unscopedBufs_held]
  exact arrays_of_unscopedBufs c (fun b => W (Proc.devRef .tc b)) dat hA hq

/-- EXIT over `StableHlo.held`: the pipeline's arrays at what it leaves and the unscoped rest at `W` are every
    unscoped buffer at `W` updated at `main_v44` (`exitVal`). -/
theorem held_of_arrays (c : Dev nD) (W : Valuation τ sig (Elt F)) (dat : Dat τ (Elt F) Unit ℕ (UR sig nD τ) ℕ cfg0 c)
    (hA : ∀ w, dat.A w = W (Proc.devRef .tc (Pipeline.arrRef spec0 w))) (hq : ∀ w, dat.q w = qIn w) :
    iprop(dat.arrays (dat.arrAt · cfg0.N) ∗ Pipeline.unscopedRest spec0 c fun b => W (Proc.devRef .tc b))
      ⊢ (StableHlo.held (c : Thread nD τ) (Pipeline.ucRefs τ sig) (exitVal W (dat.arrAt 2 cfg0.N)) : sProp 𝕄) := by
  rw [← Pipeline.unscopedBufs_held]
  exact unscopedBufs_of_arrays c (fun b => W (Proc.devRef .tc b)) (fun b => exitVal W (dat.arrAt 2 cfg0.N) (Proc.devRef .tc b)) dat hq
    (exitVal_hF W dat hA) (exitVal_hrest W _)

end Cert.Kernel.Shared
-- ==== Proof.RunB.lean ====
/-
  The run of @main: three stretches of host operations, the row-normaliser's region, one more stretch.

  The buffer contents at each boundary are a fold through @main from the launch memory: a host stretch applies its
  operations; the region leaves every buffer as it found it except its output array, which ends at what the
  pipeline's write-backs leave. The thread state carried from segment to segment is "every unscoped buffer at the
  boundary's contents, the generator register at some state, nothing owed". At the region's entry the embedding
  table, which two input windows read, is split into two half shares, one per window, and joined again at the exit.
  The conclusion: every weakly fair execution ends, nothing faults, and every unscoped buffer ends at the last
  boundary's contents.
-/
import proofs.«145238_j11793980195385_1_alg».proof.Proof.DatB
import proofs.«145238_j11793980195385_1_alg».proof.Proof.SharedArraysB
import Idealize.ShloMosaic.Lib.Pipeline.RegionsLoop

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the first stretch, -/
abbrev W1 : Dev nD → Valuation τ sig (Elt F) := fun c => StableHlo.after hostOps0 (W0 m ρ c)
/-- after the operations of the masked-select function @main calls, -/
abbrev W2 : Dev nD → Valuation τ sig (Elt F) := fun c => StableHlo.after hostOps0_1 (W1 m ρ c)
/-- and after the stretch that ends in the visit cost: the region's entry. -/
abbrev W3 : Dev nD → Valuation τ sig (Elt F) := fun c => StableHlo.after hostOps0_2 (W2 m ρ c)
/-- The same read at the TensorCore's references. -/
abbrev V3 : (c : Dev nD) → (b : Ref sig .tc) → Buf (Elt F) ((c : Thread nD τ).loc b) := fun c b => W3 m ρ c b
/-- At the region's exit: the output array at what the write-backs leave, everything else as entered. -/
abbrev W4 : Dev nD → Valuation τ sig (Elt F) := fun c =>
  Shared.exitVal (W3 m ρ c) ((Body.dat (V3 m ρ) Shared.qIn c).arrAt 2 cfg0.N)
/-- After the last stretch: the end of @main. -/
abbrev W5 : Dev nD → Valuation τ sig (Elt F) := fun c => StableHlo.after hostOps1 (W4 m ρ c)

/-! ## The proof data family and the thread state -/

abbrev adm : (p : Fin 1) → (pcfgs (F := F) p).Adm := fun p => (cfgs p).toPCfg_adm
/-- The one pipeline's proof data, at its region's entry contents, the embedding table's share halved between the two
    windows that read it. -/
def pdats : (p : Fin 1) → (c : Dev nD) → Dat τ (Elt F) Unit ℕ (UR sig nD τ) ℕ (Pipeline.pin (pcfgs (F := F)) adm p) c
  | ⟨0, _⟩ => fun c => Body.dat (V3 m ρ) Shared.qIn c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of @main allocates a buffer. -/
theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debt: every unscoped buffer at the end contents, the register at some state. -/
abbrev Tₙ (c : Dev nD) : sProp 𝕄 := iprop(StableHlo.held (c : Thread nD τ) (Pipeline.ucRefs τ sig) (W5 m ρ c) ∗ ∃ r, prngReg c r)

/-! ## The region as a segment -/

set_option backward.isDefEq.respectTransparency.types false in
/-- The region over the thread state: entered from every unscoped buffer at the entry contents, left at the exit
    contents. Its arrays come out of the unscoped buffers with the embedding table's share halved, and go back joined;
    the generator register passes through the invariant; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (Body.body_obligation (V3 m ρ) Shared.qIn c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Shared.arrays_of_held c (W3 m ρ c) (pdats m ρ 0 c) (fun w => Body.A_eq (V3 m ρ) Shared.qIn c w) (fun _ => rfl)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Body.hout (V3 m ρ) Shared.qIn c).trans ?_
    unfold Pipeline.ΦA
    iintro ⟨Hr, Hp⟩
    isplitl [Hp]; · iexact Hp
    isplitr; · iempintro
    iexact Hr
  hexit c := by
    have hjoin := Shared.held_of_arrays c (W3 m ρ c) (pdats m ρ 0 c) (fun w => Body.A_eq (V3 m ρ) Shared.qIn c w) (fun _ => rfl)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub fresh0 (W0 m ρ)),
    .host (hseg hostOps0_1 hostOps0_1_sub fresh0_1 (W1 m ρ)),
    .host (hseg hostOps0_2 hostOps0_2_sub fresh0_2 (W2 m ρ)),
    .region (reg0 m ρ),
    .host (hseg hostOps1 hostOps1_sub fresh1 (W4 m ρ)) ]

/-- @main is the run of the segments. -/
theorem main_run (c : Dev nD) : main (F := F) c = Pipeline.Seg.run (segs m ρ) := (main_chain c).trans (by chain_rfl)

set_option backward.isDefEq.respectTransparency.types false in
/-- From any memory with zero counters, every weakly fair execution of @main terminates, nothing faulting, and
    every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Run

end
-- ==== Proof.KeepsB.lean ====
import proofs.«145238_j11793980195385_1_alg».proof.Proof.Gen.Kernel.Launch

noncomputable section

namespace Cert.Kernel.Keeps

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-! # The host stretches keep @main's arguments and allocate nothing

Each of the four stretches of host operations around the kernel region writes only the buffers of the values it
defines, none of which is an argument of @main, and allocates no buffer. So the contents of every argument's buffer
after a stretch are its contents before it. -/

/-! ## No operation allocates a buffer -/

theorem hostOps0_fresh : (Gen.hostOps0 : List (HloOp τ sig (Elt F))).Forall fun op => op.fresh = ∅ := by
  simp only [List.Forall]; repeat' constructor
theorem hostOps0_1_fresh : (Gen.hostOps0_1 : List (HloOp τ sig (Elt F))).Forall fun op => op.fresh = ∅ := by
  simp only [List.Forall]; repeat' constructor
theorem hostOps0_2_fresh : (Gen.hostOps0_2 : List (HloOp τ sig (Elt F))).Forall fun op => op.fresh = ∅ := by
  simp only [List.Forall]; repeat' constructor
theorem hostOps1_fresh : (Gen.hostOps1 : List (HloOp τ sig (Elt F))).Forall fun op => op.fresh = ∅ := by
  simp only [List.Forall]; repeat' constructor

/-! ## No operation writes an argument -/

/-- @main's seven arguments. -/
def argRef : Fin 7 → Ref sig .tc
  | 0 => main_arg0
  | 1 => main_arg1
  | 2 => main_arg2
  | 3 => main_arg3
  | 4 => main_arg4
  | 5 => main_arg5
  | 6 => main_arg6
  | ⟨_ + 7, h⟩ => absurd h (Nat.not_lt.2 (Nat.le_add_left _ _))

/-- No argument is the kernel region's output array. -/
theorem argRef_ne_v44 (k : Fin 7) : argRef k ≠ main_v44 := by revert k; decide

theorem keeps0 (k : Fin 7) : (Gen.hostOps0 : List (HloOp τ sig (Elt F))).Forall fun op => Proc.devRef .tc (argRef k) ∉ op.writes := by
  simp only [Gen.hostOps0, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by revert k; decide)

theorem keeps0_1 (k : Fin 7) : (Gen.hostOps0_1 : List (HloOp τ sig (Elt F))).Forall fun op => Proc.devRef .tc (argRef k) ∉ op.writes := by
  simp only [Gen.hostOps0_1, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by revert k; decide)

theorem keeps0_2 (k : Fin 7) : (Gen.hostOps0_2 : List (HloOp τ sig (Elt F))).Forall fun op => Proc.devRef .tc (argRef k) ∉ op.writes := by
  simp only [Gen.hostOps0_2, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by revert k; decide)

theorem keeps1 (k : Fin 7) : (Gen.hostOps1 : List (HloOp τ sig (Elt F))).Forall fun op => Proc.devRef .tc (argRef k) ∉ op.writes := by
  simp only [Gen.hostOps1, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by revert k; decide)

/-! ## The walk: an argument's buffer after a stretch holds what it held before -/

theorem after_keeps0 (W : Valuation τ sig (Elt F)) (k : Fin 7) :
    StableHlo.after Gen.hostOps0 W (Proc.devRef .tc (argRef k)) = W (Proc.devRef .tc (argRef k)) :=
  StableHlo.after_of_forall_not_mem _ _ (List.forall_iff_forall_mem.mp (keeps0 k))
theorem after_keeps0_1 (W : Valuation τ sig (Elt F)) (k : Fin 7) :
    StableHlo.after Gen.hostOps0_1 W (Proc.devRef .tc (argRef k)) = W (Proc.devRef .tc (argRef k)) :=
  StableHlo.after_of_forall_not_mem _ _ (List.forall_iff_forall_mem.mp (keeps0_1 k))
theorem after_keeps0_2 (W : Valuation τ sig (Elt F)) (k : Fin 7) :
    StableHlo.after Gen.hostOps0_2 W (Proc.devRef .tc (argRef k)) = W (Proc.devRef .tc (argRef k)) :=
  StableHlo.after_of_forall_not_mem _ _ (List.forall_iff_forall_mem.mp (keeps0_2 k))
theorem after_keeps1 (W : Valuation τ sig (Elt F)) (k : Fin 7) :
    StableHlo.after Gen.hostOps1 W (Proc.devRef .tc (argRef k)) = W (Proc.devRef .tc (argRef k)) :=
  StableHlo.after_of_forall_not_mem _ _ (List.forall_iff_forall_mem.mp (keeps1 k))

end Cert.Kernel.Keeps
-- ==== Proof.FrameB.lean ====
/-
  The frame of @main: its seven arguments end as launched.

  The buffer contents at the end of @main are a fold from the launch memory through four stretches of host operations
  and the kernel region. No host operation writes an argument, and the region changes only its output array, which is
  no argument; so the fold read at an argument's buffer walks back, boundary by boundary, to the launch memory. Every
  unscoped buffer ends at the fold's contents, the arguments among them.
-/
import proofs.«145238_j11793980195385_1_alg».proof.Proof.RunB
import proofs.«145238_j11793980195385_1_alg».proof.Proof.KeepsB

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## An argument's buffer at the end of @main holds what it held at launch -/

/-- The end contents at an argument's buffer, walked back through the last stretch (which writes no argument), the
    region (whose only output array is no argument), and the three stretches before it, to the launch memory. -/
theorem W5_arg (c : Dev nD) (k : Fin 7) :
    W5 m ρ c (Proc.devRef .tc (Keeps.argRef k)) = m ((c : Thread nD τ).loc (Keeps.argRef k)) :=
  calc W5 m ρ c (Proc.devRef .tc (Keeps.argRef k))
    _ = W4 m ρ c (Proc.devRef .tc (Keeps.argRef k)) := Keeps.after_keeps1 _ k
    _ = W3 m ρ c (Proc.devRef .tc (Keeps.argRef k)) := Shared.exitVal_of_ne _ _ _ (Keeps.argRef_ne_v44 k)
    _ = W2 m ρ c (Proc.devRef .tc (Keeps.argRef k)) := Keeps.after_keeps0_2 _ k
    _ = W1 m ρ c (Proc.devRef .tc (Keeps.argRef k)) := Keeps.after_keeps0_1 _ k
    _ = W0 m ρ c (Proc.devRef .tc (Keeps.argRef k)) := Keeps.after_keeps0 _ k
    _ = m ((c : Thread nD τ).loc (Keeps.argRef k)) := rfl

/-- A final memory that has every unscoped buffer at the end contents has the seven arguments as launched: each
    argument's buffer is unscoped, and the end contents there are the launch memory's (`W5_arg`). -/
theorem args_of_all (s : MemSt nD τ sig (Elt F))
    (h : ∀ c : Dev nD, ∀ b ∈ Pipeline.ucRefs τ sig, s.mem (((c : Thread nD τ)).1, b) = W5 m ρ c b) (c : Dev nD) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6) :=
  ⟨(h c _ (mem_uc main_arg0 (by decide))).trans (W5_arg m ρ c 0),
   (h c _ (mem_uc main_arg1 (by decide))).trans (W5_arg m ρ c 1),
   (h c _ (mem_uc main_arg2 (by decide))).trans (W5_arg m ρ c 2),
   (h c _ (mem_uc main_arg3 (by decide))).trans (W5_arg m ρ c 3),
   (h c _ (mem_uc main_arg4 (by decide))).trans (W5_arg m ρ c 4),
   (h c _ (mem_uc main_arg5 (by decide))).trans (W5_arg m ρ c 5),
   (h c _ (mem_uc main_arg6 (by decide))).trans (W5_arg m ρ c 6)⟩

/-! ## The frame -/

/-- From any memory with zero counters, every weakly fair execution of @main on the TensorCores terminates, nothing
    faulting, and every final state has the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_of_all m ρ r.2 h c) (run_all m ρ)

/-- The same run, read also at @main's result: its buffer ends at the end contents, beside the seven arguments as
    launched. -/
theorem run_value : θ_run defs (onTc (τ := τ) (main (F := F))) ⟨m, fun _ => 0, ρ⟩ (fun r => ∀ c : Dev nD,
      r.2.mem ((c.tc : Thread nD τ).loc main_v77) = W5 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨h c _ (mem_uc main_v77 (by decide)), args_of_all m ρ r.2 h c⟩) (run_all m ρ)

end Cert.Kernel.Run

end
-- ==== Proof.BodyI.lean ====
/-
  The body of the row-normaliser kernel, point by point.

  The grid is 12 x 12; point t = 12 * i + j handles row block i (1024 rows of the embedding table) against
  column block j (another 1024 rows of the same table). The body keeps a [1024, 1] accumulator in a scratch
  buffer:  at j = 0 it is first overwritten with zeros;  at every j it becomes
      acc + rowsum (exp (rows_i * rows_j^T))                      (the payload k0_pay2 rows_i rows_j acc);
  at j = 11 the accumulator is copied into the output block. So there are three control cases, told apart by
  the two conditions of the body, and in each the body is a straight line of loads and whole-buffer stores:
    first column  (j = 0) : accumulator := k0_pay2 x0 x1 zeros
    middle column (0 < j < 11) : accumulator := k0_pay2 x0 x1 acc
    last column   (j = 11) : accumulator := k0_pay2 x0 x1 acc, and the output block := the same value.
  Every store writes the whole [1024, 1] buffer, so what a buffer holds afterwards is the last payload stored,
  whatever it held before.
-/
import proofs.«145238_j11793980195385_1_alg».proof.Proof.Gen.KernelIdeal.Launch
import proofs.«145238_j11793980195385_1_alg».proof.Proof.Gen.KernelIdeal.Skeleton
import proofs.«145238_j11793980195385_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions of the body, as functions of the grid point -/

/-- "This is the first column block": the condition under which the accumulator is zeroed. -/
abbrev condZ (i : grid0.Coords) : Prop := (Scalar.cmpi .ne (Scalar.extui (Scalar.cmpi .eq (BitVec.ofNat 32 (i 1).val) 0#32)) 0#32) = 1#1
/-- "This is the last column block": the condition under which the accumulator is copied out. -/
abbrev condL (i : grid0.Coords) : Prop := k0_cond2 i = 1#1

/-- The first-column condition holds exactly at the points 12 * i. -/
theorem hcondZ : ∀ t : Fin cfg0.N, condZ (grid0.coords t) ↔ t.val % 12 = 0 :=
  (by decide +kernel : ∀ t : Fin grid0.N, condZ (grid0.coords t) ↔ t.val % 12 = 0)
/-- The last-column condition holds exactly at the points 12 * i + 11. -/
theorem hcondL : ∀ t : Fin cfg0.N, condL (grid0.coords t) ↔ t.val % 12 = 11 :=
  (by decide +kernel : ∀ t : Fin grid0.N, condL (grid0.coords t) ↔ t.val % 12 = 11)

/-- The input windows are never idle. -/
theorem live0 : ∀ t : Fin cfg0.N, cfg0.idle 0 (grid0.coords t) = false := fun _ => rfl
theorem live1 : ∀ t : Fin cfg0.N, cfg0.idle 1 (grid0.coords t) = false := fun _ => rfl
/-- The output window is idle away from the last column (nothing is stored into it there) -/
theorem idle2 : ∀ t : Fin cfg0.N, ¬condL (grid0.coords t) → cfg0.idle 2 (grid0.coords t) = true := by decide +kernel
/-- and live at the last column. -/
theorem live2 : ∀ t : Fin cfg0.N, condL (grid0.coords t) → cfg0.idle 2 (grid0.coords t) = false := by decide +kernel

/-- The offsets of every access of the body are zero. -/
theorem off_zero : (![0, 0] : Fin 2 → Nat) = fun _ => 0 := by funext a; fin_cases a <;> rfl

/-! ## The body in each control case -/

set_option maxHeartbeats 1000000 in
/-- First column: from the two input blocks `x0`, `x1` and the accumulator at anything, the body leaves the
    accumulator at `k0_pay2 x0 x1 zeros`; it does not touch the output buffer. -/
theorem sound_first (c : Dev nD) (E : Set ℕ) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1024x1 .f32) (harg5 : arg5.IsWhole)
    (hc0 : condZ i) (hc1 : ¬condL i)
    (x0 x1 : Vec F S1024x128 .f32) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
              ∗ owns (c : Thread nD τ) arg5 fullShare (k0_pay2 x0 x1 (k0_pay1 (F := F)))) -∗ K ⟨⟩))
      ⊢ wp frame (wpE (defs₀ (F := F)) Variants.none c none) E (cc0__norms_kernel i arg2 harg2 arg3 harg3 arg4 harg4 arg5 harg5) K := by
  simp only [cc0__norms_kernel_eq_skeleton]; unfold cc0__norms_kernel_skel
  unfold owns
  iintro ⟨⟨%f0, %hf0, H0⟩, ⟨%f1, %hf1, H1⟩, ⟨%d5, %f5, -, H5⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  rw [View.read_writes_eq_canon _ _ _ (fun y => ⟨_, List.mem_cons_self, View.mem_set_unit_zero off_zero inb_S1024x1_S1024x1_0_0 y⟩)]
  rw [View.canon_cons_unit_zero off_zero]
  sl_unfold_run_names
  rw [View.readCov_unit_zero _ off_zero]
  simp only [View.readAt_eq_ld, View.ld_unit_zero (S := S1024x128) off_zero, View.ld_unit_zero (S := S1024x1) off_zero]

set_option maxHeartbeats 1000000 in
/-- A middle column: the accumulator goes from `acc` to `k0_pay2 x0 x1 acc`; the output buffer is not touched. -/
theorem sound_middle (c : Dev nD) (E : Set ℕ) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1024x1 .f32) (harg5 : arg5.IsWhole)
    (hc0 : ¬condZ i) (hc1 : ¬condL i)
    (x0 x1 : Vec F S1024x128 .f32) (acc : Vec F S1024x1 .f32) (K : PUnit → sProp 𝕄) :
    iprop(owns (c : Thread nD τ) arg2 fullShare x0 ∗ owns (c : Thread nD τ) arg3 fullShare x1 ∗ owns (c : Thread nD τ) arg5 fullShare acc
        ∗ (iprop(owns (c : Thread nD τ) arg2 fullShare x0 ∗ owns (c : Thread nD τ) arg3 fullShare x1
              ∗ owns (c : Thread nD τ) arg5 fullShare (k0_pay2 x0 x1 acc)) -∗ K ⟨⟩))
      ⊢ wp frame (wpE (defs₀ (F := F)) Variants.none c none) E (cc0__norms_kernel i arg2 harg2 arg3 harg3 arg4 harg4 arg5 harg5) K := by
  simp only [cc0__norms_kernel_eq_skeleton]; unfold cc0__norms_kernel_skel
  unfold owns
  iintro ⟨⟨%f0, %hf0, H0⟩, ⟨%f1, %hf1, H1⟩, ⟨%f5, %hf5, H5⟩, Hk⟩
  subst hf0; subst hf1; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  rw [View.read_writes_eq_canon _ _ _ (fun y => ⟨_, List.mem_cons_self, View.mem_set_unit_zero off_zero inb_S1024x1_S1024x1_0_0 y⟩)]
  rw [View.canon_cons_unit_zero off_zero]
  sl_unfold_run_names
  simp only [View.readAt_eq_ld, View.ld_unit_zero (S := S1024x128) off_zero, View.ld_unit_zero (S := S1024x1) off_zero]

set_option maxHeartbeats 1000000 in
/-- Last column: the accumulator goes from `acc` to `k0_pay2 x0 x1 acc`, and the output buffer, whatever it held,
    ends at that same value. -/
theorem sound_last (c : Dev nD) (E : Set ℕ) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1024x1 .f32) (harg5 : arg5.IsWhole)
    (hc0 : ¬condZ i) (hc1 : condL i)
    (x0 x1 : Vec F S1024x128 .f32) (acc : Vec F S1024x1 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare acc
        ∗ (iprop(owns (c : Thread nD τ) arg2 fullShare x0 ∗ owns (c : Thread nD τ) arg3 fullShare x1
              ∗ owns (c : Thread nD τ) arg4 fullShare (k0_pay2 x0 x1 acc)
              ∗ owns (c : Thread nD τ) arg5 fullShare (k0_pay2 x0 x1 acc)) -∗ K ⟨⟩))
      ⊢ wp frame (wpE (defs₀ (F := F)) Variants.none c none) E (cc0__norms_kernel i arg2 harg2 arg3 harg3 arg4 harg4 arg5 harg5) K := by
  simp only [cc0__norms_kernel_eq_skeleton]; unfold cc0__norms_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [View.read_writes_eq_canon _ _ _ (fun y => ⟨_, List.mem_cons_self, View.mem_set_unit_zero off_zero inb_S1024x1_S1024x1_0_0 y⟩)]
    rw [View.canon_cons_unit_zero off_zero, View.readCov_unit_zero _ off_zero]
    simp only [View.readAt_eq_ld, View.ld_unit_zero (S := S1024x128) off_zero, View.ld_unit_zero (S := S1024x1) off_zero]
  iexists _; isplitr
  swap; · iexact H5
  ipureintro
  sl_unfold_run_names
  rw [View.read_writes_eq_canon _ _ _ (fun y => ⟨_, List.mem_cons_self, View.mem_set_unit_zero off_zero inb_S1024x1_S1024x1_0_0 y⟩)]
  rw [View.canon_cons_unit_zero off_zero]
  sl_unfold_run_names
  simp only [View.readAt_eq_ld, View.ld_unit_zero (S := S1024x128) off_zero, View.ld_unit_zero (S := S1024x1) off_zero]

end Cert.KernelIdeal.Body

end
-- ==== Proof.DatI.lean ====
/-
  The proof data of the row-normaliser's pipeline and the body obligation at every grid point.

  At point t = 12 * i + j the two input windows hold row block i and row block j of the embedding table as the
  region finds it. What the scratch accumulator holds AFTER point t is defined by recursion on t:
      accAt t = k0_pay2 (block_i) (block_j) (if j = 0 then zeros else accAt (t - 1)),
  and the invariant between points says exactly that: before the first point the scratch holds anything, before
  point t > 0 it holds accAt (t - 1). The output window's buffer is only written at j = 11, with accAt t; at the
  other points the body leaves it as it found it.
-/
import proofs.«145238_j11793980195385_1_alg».proof.Proof.BodyI

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the TensorCore's buffers when the region is entered, and the shares of the windows' arrays
variable (V : (c : Dev nD) → (b : Ref sig .tc) → Buf (Elt F) ((c : Thread nD τ).loc b))
variable (q : Fin 3 → PosShare TreeShare)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched the block index has not moved since the point before. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The accumulator, point by point -/

/-- What the scratch accumulator holds after point `n`: one accumulate step from zeros at the first column block,
    from what the point before left otherwise. -/
def accAt (c : Dev nD) : (n : ℕ) → n < cfg0.N → Vec F S1024x1 .f32
  | 0, h => k0_pay2 (iblk V c 0 ⟨0, h⟩) (iblk V c 1 ⟨0, h⟩) (k0_pay1 (F := F))
  | n + 1, h => k0_pay2 (iblk V c 0 ⟨n + 1, h⟩) (iblk V c 1 ⟨n + 1, h⟩)
      (if (n + 1) % 12 = 0 then (k0_pay1 (F := F)) else accAt c n (Nat.lt_of_succ_lt h))

/-- At a first column block the accumulator restarts from zeros. -/
theorem accAt_first (c : Dev nD) (t : Fin cfg0.N) (hz : t.val % 12 = 0) :
    accAt V c t.val t.isLt = k0_pay2 (iblk V c 0 t) (iblk V c 1 t) (k0_pay1 (F := F)) := by
  obtain ⟨n, hn⟩ := t
  cases n with
  | zero => rfl
  | succ n => show k0_pay2 _ _ (if (n + 1) % 12 = 0 then _ else _) = _; rw [if_pos hz]

/-- Elsewhere it continues from the point before. -/
theorem accAt_next (c : Dev nD) (t : Fin cfg0.N) (hz : ¬ t.val % 12 = 0) :
    accAt V c t.val t.isLt = k0_pay2 (iblk V c 0 t) (iblk V c 1 t)
      (accAt V c (t.val - 1) (Nat.lt_of_le_of_lt (Nat.sub_le _ _) t.isLt)) := by
  obtain ⟨n, hn⟩ := t
  cases n with
  | zero => exact absurd (Nat.zero_mod 12) hz
  | succ n => show k0_pay2 _ _ (if (n + 1) % 12 = 0 then _ else _) = _; rw [if_neg hz]; rfl

/-! ## The invariant between points -/

/-- The scratch operand as a memref. -/
abbrev scM : Memref sig .tc .vmem S1024x1 .f32 := Memref.whole cc0_scratch0

/-- Before point `n`: at the start the scratch at anything; afterwards the scratch at what the point before left;
    always the generator register at some state (the body never touches it). -/
def PhiS (c : Dev nD) : (n : ℕ) → n ≤ cfg0.N → sProp 𝕄
  | 0, _ => Pipeline.ΦA spec0 c
  | n + 1, hn => iprop(owns (c : Thread nD τ) scM fullShare (accAt V c n hn) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM fullShare (accAt V c n hn) ∗ (∃ r, prngReg c r)) := rfl

theorem PhiS_pos (c : Dev nD) (n : ℕ) (h : n ≤ cfg0.N) (hz : n ≠ 0) :
    PhiS V c n h = iprop(owns (c : Thread nD τ) scM fullShare (accAt V c (n - 1) (by omega)) ∗ (∃ r, prngReg c r)) := by
  cases n with
  | zero => exact absurd rfl hz
  | succ n => rfl

/-- The start invariant spelt out: the one scratch buffer owned at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The proof data -/

/-- The pipeline's proof data on core `c`: the arrays as the region finds them; after the body each input's
    buffer at its block and the output's at the accumulator; the invariant above; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => accAt V c t.val t.isLt
  Φ t := PhiS V c t.val (Nat.le_of_lt_succ t.isLt)
  q := q
  owed _ := 0

theorem A_eq (c : Dev nD) (w : Fin cfg0.W) : (dat V q c).A w = V c (Pipeline.arrRef spec0 w) := by
  dsimp only [dat]
theorem q_eq (c : Dev nD) : (dat V q c).q = q := by dsimp only [dat]

theorem PhiS_castSucc (c : Dev nD) (t : Fin cfg0.N) :
    (dat V q c).Φ t.castSucc = PhiS V c t.val (Nat.le_of_lt t.isLt) := by
  dsimp only [dat]; simp only [Fin.coe_castSucc]

theorem after0 (c : Dev nD) (t : Fin cfg0.N) : (dat V q c).after 0 t = iblk V c 0 t := by dsimp only [dat]
theorem after1 (c : Dev nD) (t : Fin cfg0.N) : (dat V q c).after 1 t = iblk V c 1 t := by dsimp only [dat]
theorem after2 (c : Dev nD) (t : Fin cfg0.N) : (dat V q c).after 2 t = accAt V c t.val t.isLt := by dsimp only [dat]

theorem before0 (c : Dev nD) (t : Fin cfg0.N) (d) : (dat V q c).before 0 t d = iblk V c 0 t :=
  before0_of V (dat V q c) (A_eq V q c 0) (after0 V q c) t d
theorem before1 (c : Dev nD) (t : Fin cfg0.N) (d) : (dat V q c).before 1 t d = iblk V c 1 t :=
  before1_of V (dat V q c) (A_eq V q c 1) (after1 V q c) t d

/-! ## The body obligation -/

/-- What the body is called with at point `t`, the windows one by one, -/
def bodyPre (c : Dev nD) (t : Fin cfg0.N) : sProp 𝕄 :=
  iprop((dat V q c).Φ t.castSucc ∗ (dat V q c).owesAt () t.castSucc
    ∗ (∃ d, owns (c : Thread nD τ) (st0_0 t) fullShare ((dat V q c).before 0 t d))
    ∗ (∃ d, owns (c : Thread nD τ) (st0_1 t) fullShare ((dat V q c).before 1 t d))
    ∗ (∃ d, owns (c : Thread nD τ) (st0_2 t) fullShare ((dat V q c).before 2 t d)))

/-- and what it returns. -/
def bodyPost (c : Dev nD) (t : Fin cfg0.N) : sProp 𝕄 :=
  iprop((dat V q c).Φ t.succ ∗ (dat V q c).owesAt () t.succ
    ∗ (dat V q c).leavesExact 0 t
    ∗ (dat V q c).leavesExact 1 t
    ∗ (dat V q c).leavesExact 2 t)

theorem leaves0 (c : Dev nD) (t : Fin cfg0.N) :
    (dat V q c).leavesExact 0 t = owns (c : Thread nD τ) (st0_0 t) fullShare (iblk V c 0 t) := by
  unfold Dat.leavesExact; rw [live0 t, after0]
theorem leaves1 (c : Dev nD) (t : Fin cfg0.N) :
    (dat V q c).leavesExact 1 t = owns (c : Thread nD τ) (st0_1 t) fullShare (iblk V c 1 t) := by
  unfold Dat.leavesExact; rw [live1 t, after1]

set_option maxHeartbeats 4000000 in
/-- The body at any point, by the column it is in: the input buffers hold their blocks; the invariant hands over the
    accumulator at what the point before left (at anything at the very first point) and takes it back one step later;
    the output buffer is passed through untouched except in the last column, where it ends at the accumulator. -/
theorem sound_body (c : Dev nD) (t : Fin cfg0.N) :
    bodyPre V q c t ⊢ wp frame (wpE (defs₀ (F := F)) Variants.none c none) Set.univ (bodyAt0 t) (fun _ => bodyPost V q c t) := by
  unfold bodyPre bodyPost bodyAt0
  simp only [before0, before1]
  rw [show (dat V q c).owesAt () t.succ = (dat V q c).owesAt () t.castSucc from rfl]
  rw [show (dat V q c).Φ t.succ = PhiS V c (t.val + 1) t.isLt from rfl, PhiS_succ, leaves0, leaves1, PhiS_castSucc]
  have hN : t.val < 144 := lt_of_lt_of_eq t.isLt (show cfg0.N = 144 from N_0)
  by_cases hz : t.val % 12 = 0
  · have hL : ¬ t.val % 12 = 11 := by omega
    have hcZ : condZ (grid0.coords t) := (hcondZ t).mpr hz
    have hcL : ¬ condL (grid0.coords t) := fun h => hL ((hcondL t).mp h)
    rw [Dat.leavesExact_idle (dat V q c) 2 t (idle2 t hcL) (Bool.eq_false_iff.mpr fun h => hL ((flush0_2 t).mp h))]
    rw [accAt_first V c t hz]
    by_cases h0 : t.val = 0
    · rw [PhiS_zero V c _ _ h0, PhiA_eq]
      iintro ⟨⟨HS, Hg⟩, Ho, ⟨%d0, H0⟩, ⟨%d1, H1⟩, H2⟩
      iapply (sound_first c Set.univ (grid0.coords t) _ _ _ _ _ _ _ _ hcZ hcL (iblk V c 0 t) (iblk V c 1 t) _)
      isplitl [H0]; · iexact H0
      isplitl [H1]; · iexact H1
      isplitl [HS]; · iexact HS
      iintro ⟨H0, H1, HS⟩
      isplitl [HS Hg]
      · isplitl [HS]; · iexact HS
        iexact Hg
      isplitl [Ho]; · iexact Ho
      isplitl [H0]; · iexact H0
      isplitl [H1]; · iexact H1
      iexact H2
    · rw [PhiS_pos V c _ _ h0]
      iintro ⟨⟨HS, Hg⟩, Ho, ⟨%d0, H0⟩, ⟨%d1, H1⟩, H2⟩
      iapply (sound_first c Set.univ (grid0.coords t) _ _ _ _ _ _ _ _ hcZ hcL (iblk V c 0 t) (iblk V c 1 t) _)
      isplitl [H0]; · iexact H0
      isplitl [H1]; · iexact H1
      isplitl [HS]; · iexists _; iexact HS
      iintro ⟨H0, H1, HS⟩
      isplitl [HS Hg]
      · isplitl [HS]; · iexact HS
        iexact Hg
      isplitl [Ho]; · iexact Ho
      isplitl [H0]; · iexact H0
      isplitl [H1]; · iexact H1
      iexact H2
  · have h0 : t.val ≠ 0 := fun h => hz (by rw [h])
    have hcZ : ¬ condZ (grid0.coords t) := fun h => hz ((hcondZ t).mp h)
    rw [PhiS_pos V c _ _ h0, accAt_next V c t hz]
    by_cases hL : t.val % 12 = 11
    · have hcL : condL (grid0.coords t) := (hcondL t).mpr hL
      rw [show (dat V q c).leavesExact 2 t = owns (c : Thread nD τ) (st0_2 t) fullShare ((dat V q c).after 2 t) from by
        unfold Dat.leavesExact; rw [live2 t hcL], after2, accAt_next V c t hz]
      iintro ⟨⟨HS, Hg⟩, Ho, ⟨%d0, H0⟩, ⟨%d1, H1⟩, ⟨%d2, H2⟩⟩
      iapply (sound_last c Set.univ (grid0.coords t) _ _ _ _ _ _ _ _ hcZ hcL (iblk V c 0 t) (iblk V c 1 t) _ _)
      isplitl [H0]; · iexact H0
      isplitl [H1]; · iexact H1
      isplitl [H2]; · iexists _; iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexact H2
    · have hcL : ¬ condL (grid0.coords t) := fun h => hL ((hcondL t).mp h)
      rw [Dat.leavesExact_idle (dat V q c) 2 t (idle2 t hcL) (Bool.eq_false_iff.mpr fun h => hL ((flush0_2 t).mp h))]
      iintro ⟨⟨HS, Hg⟩, Ho, ⟨%d0, H0⟩, ⟨%d1, H1⟩, H2⟩
      iapply (sound_middle c Set.univ (grid0.coords t) _ _ _ _ _ _ _ _ hcZ hcL (iblk V c 0 t) (iblk V c 1 t) _ _)
      isplitl [H0]; · iexact H0
      isplitl [H1]; · iexact H1
      isplitl [HS]; · iexact HS
      iintro ⟨H0, H1, HS⟩
      isplitl [HS Hg]
      · isplitl [HS]; · iexact HS
        iexact Hg
      isplitl [Ho]; · iexact Ho
      isplitl [H0]; · iexact H0
      isplitl [H1]; · iexact H1
      iexact H2

/-- The library's body obligation, at every point. -/
theorem body_obligation (c : Dev nD) : BodyObligation (dat (F := F) V q c) (defs₀ (F := F)) Variants.none () Set.univ := fun t => by
  rw [bigSep_W0, bigSep_W0]
  exact sound_body V q c t

/-- What the launch hands the region is the invariant before the first point. -/
theorem hin (c : Dev nD) : Pipeline.ΦA spec0 c ⊢ (dat V q c).Φ 0 := by
  rw [show (dat V q c).Φ 0 = PhiS V c 0 (Nat.zero_le _) from rfl, PhiS_zero V c 0 _ rfl]
  try exact Idealize.SL.BI.Entails.refl _

/-- After the last point the invariant gives the scratch and the register back, the accumulator's value forgotten. -/
theorem hout (c : Dev nD) : (dat V q c).Φ (Fin.last cfg0.N) ⊢ Pipeline.ΦA spec0 c := by
  rw [show (dat V q c).Φ (Fin.last cfg0.N) = PhiS V c cfg0.N (Nat.le_refl _) from rfl,
    PhiS_pos V c _ _ (by rw [show cfg0.N = 144 from N_0]; decide), PhiA_eq]
  iintro ⟨HS, Hg⟩
  isplitl [HS]
  · iexists _; iexact HS
  iexact Hg

end Cert.KernelIdeal.Body

end
-- ==== Proof.SharedArraysI.lean ====
import proofs.«145238_j11793980195385_1_alg».proof.Proof.Gen.KernelIdeal.Launch
import Idealize.ShloMosaic.Lib.Pipeline.RegionsLoop
import Idealize.ShloMosaic.Lib.Pipeline.FrameSuffix

noncomputable section

namespace Cert.KernelIdeal.Shared

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

/-! # One array behind two input windows: the shares, and the arrays in and out of the unscoped buffers

Windows 0 and 1 both read the array `main_arg4`; window 2 writes `main_v44`. The full share of `main_arg4` is
dealt to the two reading windows as its left and right halves, which compose back to the full share. -/

/-- The left half of the full share: window 0's share of the array it reads. -/
abbrev qL : PosShare TreeShare := fullShare.left
/-- The right half of the full share: window 1's share of the same array. -/
abbrev qR : PosShare TreeShare := fullShare.right
/-- The two halves compose to the full share. -/
theorem qL_op_qR : fullShare ∈ PCS.op qL qR := PosShare.mem_left_op_right fullShare

/-- The share each window holds its array at: the two readers of `main_arg4` a half each, the writer of `main_v44`
    the full share (which `Dat.share` gives an output window whatever is stated here). -/
abbrev qIn : Fin 3 → PosShare TreeShare :=
  fun | 0 => qL | 1 => qR | 2 => fullShare | ⟨_ + 3, h⟩ => absurd h (Nat.not_lt.2 (Nat.le_add_left _ _))

/-- The distinct buffers behind the three windows' arrays are two. -/
theorem arrRefs : Finset.univ.image (Pipeline.arrRef spec0) = {main_arg4, main_v44} := by decide

/-- The buffers behind the windows' arrays, whole at the full share, are the two points-to facts. -/
theorem arrBufs_eq (c : Dev nD) (V : (b : Ref sig .tc) → Buf (Elt F) ((c : Thread nD τ).loc b)) :
    (Pipeline.arrBufs spec0 c V : sProp 𝕄)
      = iprop((((c : Thread nD τ).loc main_arg4) ↦{fullShare} V main_arg4) ∗ (((c : Thread nD τ).loc main_v44) ↦{fullShare} V main_v44)) := by
  unfold Pipeline.arrBufs
  rw [arrRefs, bigSep_insert (by decide), bigSep_singleton]
  rfl

/-- A core's unscoped buffers are the buffers behind the windows' arrays and the rest. -/
theorem unscopedBufs_split (c : Dev nD) (V : (b : Ref sig .tc) → Buf (Elt F) ((c : Thread nD τ).loc b)) :
    (unscopedBufs c V : sProp 𝕄) = iprop(Pipeline.arrBufs spec0 c V ∗ Pipeline.unscopedRest spec0 c V) :=
  Pipeline.unscopedBufs_split₀ cfgs 0 Gen.winFacts₀0.arr_unscoped c V

section Arrays
variable {c : Dev nD} (dat : Dat τ (Elt F) Unit ℕ (UR sig nD τ) ℕ cfg0 c)

theorem share0 (hq : ∀ w, dat.q w = qIn w) : dat.share 0 = qL := by
  unfold Dat.share; rw [hq]; rfl
theorem share1 (hq : ∀ w, dat.q w = qIn w) : dat.share 1 = qR := by
  unfold Dat.share; rw [hq]; rfl
theorem share2 : dat.share 2 = fullShare := by
  unfold Dat.share; rfl

/-- The pipeline's arrays at contents `X`, window by window: `main_arg4` at each half, `main_v44` at the full share. -/
theorem arrays_eq (hq : ∀ w, dat.q w = qIn w)
    (X : (w : Fin cfg0.W) → Buf (Elt F) ((cfg0.win w).arr.view.loc (c : Thread nD τ))) :
    (dat.arrays X : sProp 𝕄)
      = iprop((((c : Thread nD τ).loc main_arg4) ↦{qL} X 0) ∗ (((c : Thread nD τ).loc main_arg4) ↦{qR} X 1)
          ∗ (((c : Thread nD τ).loc main_v44) ↦{fullShare} X 2)) := by
  unfold Dat.arrays
  rw [Gen.bigSep_W0, (Gen.arr_whole0 0).set_eq_univ, (Gen.arr_whole0 2).set_eq_univ,
    share0 dat hq, share1 dat hq, share2 dat]
end Arrays

/-! ## ENTRY: the arrays split out of the unscoped buffers, `main_arg4` halved between its two readers -/

/-- A core's unscoped buffers at contents `V` are the pipeline's arrays at the proof data's entry contents — read
    off `V` (`hA`), `main_arg4` held at the left half by window 0 and at the right half by window 1 (`hq`),
    `main_v44` at the full share — and the unscoped rest. -/
theorem arrays_of_unscopedBufs (c : Dev nD) (V : (b : Ref sig .tc) → Buf (Elt F) ((c : Thread nD τ).loc b))
    (dat : Dat τ (Elt F) Unit ℕ (UR sig nD τ) ℕ cfg0 c)
    (hA : ∀ w, dat.A w = V (Pipeline.arrRef spec0 w)) (hq : ∀ w, dat.q w = qIn w) :
    (unscopedBufs c V : sProp 𝕄) ⊢ iprop(dat.arrays (dat.arrAt · 0) ∗ Pipeline.unscopedRest spec0 c V) := by
  rw [unscopedBufs_split c V, arrBufs_eq c V, arrays_eq dat hq,
    show dat.arrAt 0 0 = V main_arg4 from hA 0, show dat.arrAt 1 0 = V main_arg4 from hA 1,
    show dat.arrAt 2 0 = V main_v44 from hA 2]
  iintro ⟨⟨Ha, Hv⟩, Hrest⟩
  ihave H := (pointsTo_share qL_op_qR).1 $$ Ha
  icases H with ⟨H0, H1⟩
  isplitr [Hrest]
  · isplitl [H0]; · iexact H0
    isplitl [H1]; · iexact H1
    iexact Hv
  iexact Hrest

/-! ## EXIT: the arrays put back among the unscoped buffers, the halves of `main_arg4` joined

An input window's array is never written, so windows 0 and 1 hold `main_arg4` at the end at the contents they
entered with; the two halves then carry the same contents and join to the full share. -/

/-- The pipeline's arrays at the contents it leaves and the unscoped rest at `V` are the core's unscoped buffers at
    any valuation `V'` that has each array at what the pipeline leaves (`hF`) and agrees with `V` off the arrays
    (`hrest`). -/
theorem unscopedBufs_of_arrays (c : Dev nD) (V V' : (b : Ref sig .tc) → Buf (Elt F) ((c : Thread nD τ).loc b))
    (dat : Dat τ (Elt F) Unit ℕ (UR sig nD τ) ℕ cfg0 c) (hq : ∀ w, dat.q w = qIn w)
    (hF : ∀ w, dat.arrAt w cfg0.N = V' (Pipeline.arrRef spec0 w))
    (hrest : ∀ b, b ∉ Finset.univ.image (Pipeline.arrRef spec0) → V' b = V b) :
    iprop(dat.arrays (dat.arrAt · cfg0.N) ∗ Pipeline.unscopedRest spec0 c V) ⊢ (unscopedBufs c V' : sProp 𝕄) := by
  have hR : (Pipeline.unscopedRest spec0 c V : sProp 𝕄) = Pipeline.unscopedRest spec0 c V' := by
    unfold Pipeline.unscopedRest
    exact bigSep_congr fun b hb => by rw [hrest b (Finset.mem_sdiff.mp hb).2]
  rw [unscopedBufs_split c V', arrBufs_eq c V', arrays_eq dat hq, hR,
    show dat.arrAt 0 cfg0.N = V' main_arg4 from hF 0, show dat.arrAt 1 cfg0.N = V' main_arg4 from hF 1,
    show dat.arrAt 2 cfg0.N = V' main_v44 from hF 2]
  iintro ⟨⟨H0, H1, Hv⟩, Hrest⟩
  isplitr [Hrest]
  · isplitr [Hv]
    · iapply (pointsTo_share qL_op_qR).2
      isplitl [H0]; · iexact H0
      iexact H1
    iexact Hv
  iexact Hrest

/-! ## The exit valuation: the entry valuation updated at the output array -/

/-- The buffer contents `W` with `main_v44` at `X`: what the region leaves, its only output array being `main_v44`. -/
def exitVal (W : Valuation τ sig (Elt F)) (X : (Proc.devRef (τ := τ) .tc main_v44).ty.Contents (Elt F)) : Valuation τ sig (Elt F) :=
  Function.update W (Proc.devRef .tc main_v44) X

theorem exitVal_arr (W : Valuation τ sig (Elt F)) (X : (Proc.devRef (τ := τ) .tc main_v44).ty.Contents (Elt F)) :
    exitVal W X (Proc.devRef .tc main_v44) = X := by
  unfold exitVal; exact Function.update_self _ _ _

theorem exitVal_of_ne (W : Valuation τ sig (Elt F)) (X : (Proc.devRef (τ := τ) .tc main_v44).ty.Contents (Elt F))
    (b : Ref sig .tc) (hb : b ≠ main_v44) : exitVal W X (Proc.devRef .tc b) = W (Proc.devRef .tc b) := by
  unfold exitVal
  exact Function.update_of_ne (fun e => hb (Proc.devRef_injective _ e)) _ _

/-- No input window's array is `main_v44`, and the two input windows' array is `main_arg4`. -/
theorem arg4_ne_v44 : (main_arg4 : Ref sig .tc) ≠ main_v44 := by decide

/-- At the exit valuation each array holds what the pipeline leaves: `main_v44` by definition, `main_arg4` —
    an input's array, never written — what it held at entry (`hA`), where the exit valuation is the entry one. -/
theorem exitVal_hF {c : Dev nD} (W : Valuation τ sig (Elt F)) (dat : Dat τ (Elt F) Unit ℕ (UR sig nD τ) ℕ cfg0 c)
    (hA : ∀ w, dat.A w = W (Proc.devRef .tc (Pipeline.arrRef spec0 w))) (w : Fin cfg0.W) :
    dat.arrAt w cfg0.N = exitVal W (dat.arrAt 2 cfg0.N) (Proc.devRef .tc (Pipeline.arrRef spec0 w)) :=
  match w with
  | 0 => ((dat.arrAt_in 0 rfl _).trans (hA 0)).trans (exitVal_of_ne W _ main_arg4 arg4_ne_v44).symm
  | 1 => ((dat.arrAt_in 1 rfl _).trans (hA 1)).trans (exitVal_of_ne W _ main_arg4 arg4_ne_v44).symm
  | 2 => (exitVal_arr W _).symm
  | ⟨_ + 3, h⟩ => absurd h (Nat.not_lt.2 (Nat.le_add_left _ _))

/-- Off the windows' arrays the exit valuation is the entry one. -/
theorem exitVal_hrest (W : Valuation τ sig (Elt F)) (X : (Proc.devRef (τ := τ) .tc main_v44).ty.Contents (Elt F))
    (b : Ref sig .tc) (hb : b ∉ Finset.univ.image (Pipeline.arrRef spec0)) :
    exitVal W X (Proc.devRef .tc b) = W (Proc.devRef .tc b) :=
  exitVal_of_ne W X b fun e => hb (by rw [arrRefs, e]; exact Finset.mem_insert_of_mem (Finset.mem_singleton_self _))

/-! ## The two steps over a thread state that holds every unscoped buffer at a valuation -/

/-- ENTRY over `StableHlo.held`: every unscoped buffer at `W` is the pipeline's arrays at the entry contents and the
    unscoped rest at `W`. -/
theorem arrays_of_held (c : Dev nD) (W : Valuation τ sig (Elt F)) (dat : Dat τ (Elt F) Unit ℕ (UR sig nD τ) ℕ cfg0 c)
    (hA : ∀ w, dat.A w = W (Proc.devRef .tc (Pipeline.arrRef spec0 w))) (hq : ∀ w, dat.q w = qIn w) :
    (StableHlo.held (c : Thread nD τ) (Pipeline.ucRefs τ sig) W : sProp 𝕄)
      ⊢ iprop(dat.arrays (dat.arrAt · 0) ∗ Pipeline.unscopedRest spec0 c fun b => W (Proc.devRef .tc b)) := by
  rw [← Pipeline.unscopedBufs_held]
  exact arrays_of_unscopedBufs c (fun b => W (Proc.devRef .tc b)) dat hA hq

/-- EXIT over `StableHlo.held`: the pipeline's arrays at what it leaves and the unscoped rest at `W` are every
    unscoped buffer at `W` updated at `main_v44` (`exitVal`). -/
theorem held_of_arrays (c : Dev nD) (W : Valuation τ sig (Elt F)) (dat : Dat τ (Elt F) Unit ℕ (UR sig nD τ) ℕ cfg0 c)
    (hA : ∀ w, dat.A w = W (Proc.devRef .tc (Pipeline.arrRef spec0 w))) (hq : ∀ w, dat.q w = qIn w) :
    iprop(dat.arrays (dat.arrAt · cfg0.N) ∗ Pipeline.unscopedRest spec0 c fun b => W (Proc.devRef .tc b))
      ⊢ (StableHlo.held (c : Thread nD τ) (Pipeline.ucRefs τ sig) (exitVal W (dat.arrAt 2 cfg0.N)) : sProp 𝕄) := by
  rw [← Pipeline.unscopedBufs_held]
  exact unscopedBufs_of_arrays c (fun b => W (Proc.devRef .tc b)) (fun b => exitVal W (dat.arrAt 2 cfg0.N) (Proc.devRef .tc b)) dat hq
    (exitVal_hF W dat hA) (exitVal_hrest W _)

end Cert.KernelIdeal.Shared
-- ==== Proof.RunI.lean ====
/-
  The run of @main: three stretches of host operations, the row-normaliser's region, one more stretch.

  The buffer contents at each boundary are a fold through @main from the launch memory: a host stretch applies its
  operations; the region leaves every buffer as it found it except its output array, which ends at what the
  pipeline's write-backs leave. The thread state carried from segment to segment is "every unscoped buffer at the
  boundary's contents, the generator register at some state, nothing owed". At the region's entry the embedding
  table, which two input windows read, is split into two half shares, one per window, and joined again at the exit.
  The conclusion: every weakly fair execution ends, nothing faults, and every unscoped buffer ends at the last
  boundary's contents.
-/
import proofs.«145238_j11793980195385_1_alg».proof.Proof.DatI
import proofs.«145238_j11793980195385_1_alg».proof.Proof.SharedArraysI
import Idealize.ShloMosaic.Lib.Pipeline.RegionsLoop

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the first stretch, -/
abbrev W1 : Dev nD → Valuation τ sig (Elt F) := fun c => StableHlo.after hostOps0 (W0 m ρ c)
/-- after the operations of the masked-select function @main calls, -/
abbrev W2 : Dev nD → Valuation τ sig (Elt F) := fun c => StableHlo.after hostOps0_1 (W1 m ρ c)
/-- and after the stretch that ends in the visit cost: the region's entry. -/
abbrev W3 : Dev nD → Valuation τ sig (Elt F) := fun c => StableHlo.after hostOps0_2 (W2 m ρ c)
/-- The same read at the TensorCore's references. -/
abbrev V3 : (c : Dev nD) → (b : Ref sig .tc) → Buf (Elt F) ((c : Thread nD τ).loc b) := fun c b => W3 m ρ c b
/-- At the region's exit: the output array at what the write-backs leave, everything else as entered. -/
abbrev W4 : Dev nD → Valuation τ sig (Elt F) := fun c =>
  Shared.exitVal (W3 m ρ c) ((Body.dat (V3 m ρ) Shared.qIn c).arrAt 2 cfg0.N)
/-- After the last stretch: the end of @main. -/
abbrev W5 : Dev nD → Valuation τ sig (Elt F) := fun c => StableHlo.after hostOps1 (W4 m ρ c)

/-! ## The proof data family and the thread state -/

abbrev adm : (p : Fin 1) → (pcfgs (F := F) p).Adm := fun p => (cfgs p).toPCfg_adm
/-- The one pipeline's proof data, at its region's entry contents, the embedding table's share halved between the two
    windows that read it. -/
def pdats : (p : Fin 1) → (c : Dev nD) → Dat τ (Elt F) Unit ℕ (UR sig nD τ) ℕ (Pipeline.pin (pcfgs (F := F)) adm p) c
  | ⟨0, _⟩ => fun c => Body.dat (V3 m ρ) Shared.qIn c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of @main allocates a buffer. -/
theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debt: every unscoped buffer at the end contents, the register at some state. -/
abbrev Tₙ (c : Dev nD) : sProp 𝕄 := iprop(StableHlo.held (c : Thread nD τ) (Pipeline.ucRefs τ sig) (W5 m ρ c) ∗ ∃ r, prngReg c r)

/-! ## The region as a segment -/

set_option backward.isDefEq.respectTransparency.types false in
/-- The region over the thread state: entered from every unscoped buffer at the entry contents, left at the exit
    contents. Its arrays come out of the unscoped buffers with the embedding table's share halved, and go back joined;
    the generator register passes through the invariant; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (Body.body_obligation (V3 m ρ) Shared.qIn c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Shared.arrays_of_held c (W3 m ρ c) (pdats m ρ 0 c) (fun w => Body.A_eq (V3 m ρ) Shared.qIn c w) (fun _ => rfl)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Body.hout (V3 m ρ) Shared.qIn c).trans ?_
    unfold Pipeline.ΦA
    iintro ⟨Hr, Hp⟩
    isplitl [Hp]; · iexact Hp
    isplitr; · iempintro
    iexact Hr
  hexit c := by
    have hjoin := Shared.held_of_arrays c (W3 m ρ c) (pdats m ρ 0 c) (fun w => Body.A_eq (V3 m ρ) Shared.qIn c w) (fun _ => rfl)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub fresh0 (W0 m ρ)),
    .host (hseg hostOps0_1 hostOps0_1_sub fresh0_1 (W1 m ρ)),
    .host (hseg hostOps0_2 hostOps0_2_sub fresh0_2 (W2 m ρ)),
    .region (reg0 m ρ),
    .host (hseg hostOps1 hostOps1_sub fresh1 (W4 m ρ)) ]

/-- @main is the run of the segments. -/
theorem main_run (c : Dev nD) : main (F := F) c = Pipeline.Seg.run (segs m ρ) := (main_chain c).trans (by chain_rfl)

set_option backward.isDefEq.respectTransparency.types false in
/-- From any memory with zero counters, every weakly fair execution of @main terminates, nothing faulting, and
    every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Run

end
-- ==== Proof.KeepsI.lean ====
import proofs.«145238_j11793980195385_1_alg».proof.Proof.Gen.KernelIdeal.Launch

noncomputable section

namespace Cert.KernelIdeal.Keeps

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-! # The host stretches keep @main's arguments and allocate nothing

Each of the four stretches of host operations around the kernel region writes only the buffers of the values it
defines, none of which is an argument of @main, and allocates no buffer. So the contents of every argument's buffer
after a stretch are its contents before it. -/

/-! ## No operation allocates a buffer -/

theorem hostOps0_fresh : (Gen.hostOps0 : List (HloOp τ sig (Elt F))).Forall fun op => op.fresh = ∅ := by
  simp only [List.Forall]; repeat' constructor
theorem hostOps0_1_fresh : (Gen.hostOps0_1 : List (HloOp τ sig (Elt F))).Forall fun op => op.fresh = ∅ := by
  simp only [List.Forall]; repeat' constructor
theorem hostOps0_2_fresh : (Gen.hostOps0_2 : List (HloOp τ sig (Elt F))).Forall fun op => op.fresh = ∅ := by
  simp only [List.Forall]; repeat' constructor
theorem hostOps1_fresh : (Gen.hostOps1 : List (HloOp τ sig (Elt F))).Forall fun op => op.fresh = ∅ := by
  simp only [List.Forall]; repeat' constructor

/-! ## No operation writes an argument -/

/-- @main's seven arguments. -/
def argRef : Fin 7 → Ref sig .tc
  | 0 => main_arg0
  | 1 => main_arg1
  | 2 => main_arg2
  | 3 => main_arg3
  | 4 => main_arg4
  | 5 => main_arg5
  | 6 => main_arg6
  | ⟨_ + 7, h⟩ => absurd h (Nat.not_lt.2 (Nat.le_add_left _ _))

/-- No argument is the kernel region's output array. -/
theorem argRef_ne_v44 (k : Fin 7) : argRef k ≠ main_v44 := by revert k; decide

theorem keeps0 (k : Fin 7) : (Gen.hostOps0 : List (HloOp τ sig (Elt F))).Forall fun op => Proc.devRef .tc (argRef k) ∉ op.writes := by
  simp only [Gen.hostOps0, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by revert k; decide)

theorem keeps0_1 (k : Fin 7) : (Gen.hostOps0_1 : List (HloOp τ sig (Elt F))).Forall fun op => Proc.devRef .tc (argRef k) ∉ op.writes := by
  simp only [Gen.hostOps0_1, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by revert k; decide)

theorem keeps0_2 (k : Fin 7) : (Gen.hostOps0_2 : List (HloOp τ sig (Elt F))).Forall fun op => Proc.devRef .tc (argRef k) ∉ op.writes := by
  simp only [Gen.hostOps0_2, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by revert k; decide)

theorem keeps1 (k : Fin 7) : (Gen.hostOps1 : List (HloOp τ sig (Elt F))).Forall fun op => Proc.devRef .tc (argRef k) ∉ op.writes := by
  simp only [Gen.hostOps1, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by revert k; decide)

/-! ## The walk: an argument's buffer after a stretch holds what it held before -/

theorem after_keeps0 (W : Valuation τ sig (Elt F)) (k : Fin 7) :
    StableHlo.after Gen.hostOps0 W (Proc.devRef .tc (argRef k)) = W (Proc.devRef .tc (argRef k)) :=
  StableHlo.after_of_forall_not_mem _ _ (List.forall_iff_forall_mem.mp (keeps0 k))
theorem after_keeps0_1 (W : Valuation τ sig (Elt F)) (k : Fin 7) :
    StableHlo.after Gen.hostOps0_1 W (Proc.devRef .tc (argRef k)) = W (Proc.devRef .tc (argRef k)) :=
  StableHlo.after_of_forall_not_mem _ _ (List.forall_iff_forall_mem.mp (keeps0_1 k))
theorem after_keeps0_2 (W : Valuation τ sig (Elt F)) (k : Fin 7) :
    StableHlo.after Gen.hostOps0_2 W (Proc.devRef .tc (argRef k)) = W (Proc.devRef .tc (argRef k)) :=
  StableHlo.after_of_forall_not_mem _ _ (List.forall_iff_forall_mem.mp (keeps0_2 k))
theorem after_keeps1 (W : Valuation τ sig (Elt F)) (k : Fin 7) :
    StableHlo.after Gen.hostOps1 W (Proc.devRef .tc (argRef k)) = W (Proc.devRef .tc (argRef k)) :=
  StableHlo.after_of_forall_not_mem _ _ (List.forall_iff_forall_mem.mp (keeps1 k))

end Cert.KernelIdeal.Keeps
-- ==== Proof.FrameI.lean ====
/-
  The frame of @main: its seven arguments end as launched.

  The buffer contents at the end of @main are a fold from the launch memory through four stretches of host operations
  and the kernel region. No host operation writes an argument, and the region changes only its output array, which is
  no argument; so the fold read at an argument's buffer walks back, boundary by boundary, to the launch memory. Every
  unscoped buffer ends at the fold's contents, the arguments among them.
-/
import proofs.«145238_j11793980195385_1_alg».proof.Proof.RunI
import proofs.«145238_j11793980195385_1_alg».proof.Proof.KeepsI

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## An argument's buffer at the end of @main holds what it held at launch -/

/-- The end contents at an argument's buffer, walked back through the last stretch (which writes no argument), the
    region (whose only output array is no argument), and the three stretches before it, to the launch memory. -/
theorem W5_arg (c : Dev nD) (k : Fin 7) :
    W5 m ρ c (Proc.devRef .tc (Keeps.argRef k)) = m ((c : Thread nD τ).loc (Keeps.argRef k)) :=
  calc W5 m ρ c (Proc.devRef .tc (Keeps.argRef k))
    _ = W4 m ρ c (Proc.devRef .tc (Keeps.argRef k)) := Keeps.after_keeps1 _ k
    _ = W3 m ρ c (Proc.devRef .tc (Keeps.argRef k)) := Shared.exitVal_of_ne _ _ _ (Keeps.argRef_ne_v44 k)
    _ = W2 m ρ c (Proc.devRef .tc (Keeps.argRef k)) := Keeps.after_keeps0_2 _ k
    _ = W1 m ρ c (Proc.devRef .tc (Keeps.argRef k)) := Keeps.after_keeps0_1 _ k
    _ = W0 m ρ c (Proc.devRef .tc (Keeps.argRef k)) := Keeps.after_keeps0 _ k
    _ = m ((c : Thread nD τ).loc (Keeps.argRef k)) := rfl

/-- A final memory that has every unscoped buffer at the end contents has the seven arguments as launched: each
    argument's buffer is unscoped, and the end contents there are the launch memory's (`W5_arg`). -/
theorem args_of_all (s : MemSt nD τ sig (Elt F))
    (h : ∀ c : Dev nD, ∀ b ∈ Pipeline.ucRefs τ sig, s.mem (((c : Thread nD τ)).1, b) = W5 m ρ c b) (c : Dev nD) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6) :=
  ⟨(h c _ (mem_uc main_arg0 (by decide))).trans (W5_arg m ρ c 0),
   (h c _ (mem_uc main_arg1 (by decide))).trans (W5_arg m ρ c 1),
   (h c _ (mem_uc main_arg2 (by decide))).trans (W5_arg m ρ c 2),
   (h c _ (mem_uc main_arg3 (by decide))).trans (W5_arg m ρ c 3),
   (h c _ (mem_uc main_arg4 (by decide))).trans (W5_arg m ρ c 4),
   (h c _ (mem_uc main_arg5 (by decide))).trans (W5_arg m ρ c 5),
   (h c _ (mem_uc main_arg6 (by decide))).trans (W5_arg m ρ c 6)⟩

/-! ## The frame -/

/-- From any memory with zero counters, every weakly fair execution of @main on the TensorCores terminates, nothing
    faulting, and every final state has the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_of_all m ρ r.2 h c) (run_all m ρ)

/-- The same run, read also at @main's result: its buffer ends at the end contents, beside the seven arguments as
    launched. -/
theorem run_value : θ_run defs (onTc (τ := τ) (main (F := F))) ⟨m, fun _ => 0, ρ⟩ (fun r => ∀ c : Dev nD,
      r.2.mem ((c.tc : Thread nD τ).loc main_v77) = W5 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨h c _ (mem_uc main_v77 (by decide)), args_of_all m ρ r.2 h c⟩) (run_all m ρ)

end Cert.KernelIdeal.Run

end
-- ==== Proof.HostValueI.lean ====
/-
  The host operations around the region, read as functions.

  Both programs compute the visit cost from the arguments by the same operations, and both finish with the same
  operations from the vector of row normalisers on: gather it at the pair indices, divide, add a small constant,
  take logarithms, negate, average, and add the visit cost. So the kernel's final scalar is
      visit_cost(arguments) + tail(norms, arguments)
  with `visit_cost` and `tail` the reference's own stages; the two programs differ only in how `norms` is made.
  The stages are never opened here: each side is rewritten to the same stage names.
-/
import proofs.«145238_j11793980195385_1_alg».proof.Proof.Gen.KernelIdeal.Launch
import proofs.«145238_j11793980195385_1_alg».proof.Proof.Gen.ReferenceIdeal.Read
import Idealize.ShloMosaic.Lib.StableHlo.Run

set_option maxRecDepth 16384

noncomputable section

namespace Cert.HostValue

open Idealize.ShloMosaic Idealize.ShloMosaic.TcCoe Idealize.ShloMosaic.StableHlo
open Cert.ReferenceIdeal Cert.ReferenceIdeal.Gen Cert.ReferenceIdeal.Read

variable {F : FTy → Type} [FloatOps F]

/-- The reference's last stages from the vector of row normalisers `n` on: the mean over the pairs of
    `-log (exp(e_i . e_j) / n[i] + eps)`. -/
def tail (n : (⟨S12288, .f32⟩ : BufTy).Contents (Elt F)) (x1 x2 : (⟨S200000, .i32⟩ : BufTy).Contents (Elt F))
    (x4 : (⟨S12288x128, .f32⟩ : BufTy).Contents (Elt F)) : (⟨S_, .f32⟩ : BufTy).Contents (Elt F) :=
  Host.divf
    (Host.reduceAdd
      (Host.negf (Host.log (addf
        (Host.divf (val_main_v64 (F := F) x1 x2 x4)
          (Host.gather gather_S12288_S200000x1_S200000_n_0_n_n_0_1_1 n (val_main_v70 (F := F) x1)))
        (val_main_v73 (F := F)))))
      (val_main_cst_21 (F := F)) reducesTo_S200000_S_d0 h_S_)
    (val_main_cst_22 (F := F))

/-- At the reference's own normalisers it is the reference's concept cost. -/
theorem tail_ref (x1 x2 : (⟨S200000, .i32⟩ : BufTy).Contents (Elt F)) (x4 : (⟨S12288x128, .f32⟩ : BufTy).Contents (Elt F)) :
    tail (val_main_v47 (F := F) x4) x1 x2 x4 = val_main_v78 (F := F) x1 x2 x4 := by
  unfold tail val_main_v78 val_main_v77 val_main_v76 val_main_v75 val_main_v74 val_main_v72 val_main_v71
  rfl

/-- The kernel program's three stretches before the region leave the visit cost in its buffer: the reference's
    stage of the same arguments. -/
theorem kernel_visit_cost (W : Valuation Cert.KernelIdeal.τ Cert.KernelIdeal.sig (Elt F)) :
    after (Cert.KernelIdeal.Gen.hostOps0_2 (F := F)) (after (Cert.KernelIdeal.Gen.hostOps0_1 (F := F)) (after (Cert.KernelIdeal.Gen.hostOps0 (F := F)) W))
        (Proc.devRef .tc Cert.KernelIdeal.main_v43)
      = val_main_v43 (F := F) (W (Proc.devRef .tc Cert.KernelIdeal.main_arg0)) (W (Proc.devRef .tc Cert.KernelIdeal.main_arg3))
          (W (Proc.devRef .tc Cert.KernelIdeal.main_arg4)) (W (Proc.devRef .tc Cert.KernelIdeal.main_arg5)) (W (Proc.devRef .tc Cert.KernelIdeal.main_arg6)) := by
  after_results_simp
  rfl

/-- The kernel program's last stretch, from any contents: its final scalar is the visit cost it finds plus the tail of
    the output column the region left, read as a vector. -/
theorem kernel_tail (W : Valuation Cert.KernelIdeal.τ Cert.KernelIdeal.sig (Elt F)) :
    after (Cert.KernelIdeal.Gen.hostOps1 (F := F)) W (Proc.devRef .tc Cert.KernelIdeal.main_v77)
      = addf (W (Proc.devRef .tc Cert.KernelIdeal.main_v43))
          (tail (shapeCast Cert.KernelIdeal.S12288 (W (Proc.devRef .tc Cert.KernelIdeal.main_v44)) Cert.KernelIdeal.Gen.shapeCasts_S12288x1_S12288)
            (W (Proc.devRef .tc Cert.KernelIdeal.main_arg1)) (W (Proc.devRef .tc Cert.KernelIdeal.main_arg2))
            (W (Proc.devRef .tc Cert.KernelIdeal.main_arg4))) := by
  after_results_simp
  rfl

end Cert.HostValue

end
-- ==== Proof.NormsStep.lean ====
/-
  One accumulation step of the row-norm kernel, read at a row, on the extended reals.

  The step takes two 1024 × 128 blocks of the embedding and a 1024 × 1 accumulator. It forms the
  1024 × 1024 matrix of inner products between the rows of the first block and the rows of the
  second (the second block enters transposed), takes the exponential of each entry, sums each row
  over its 1024 columns and adds that row sum to the accumulator. On the extended reals the format
  change on the way into the product is the identity and the product into a zero accumulator is the
  plain sum over the 128 contraction coordinates, so at row `p` the step is

      acc p + ∑ q < 1024, exp (∑ d < 128, x0[p, d] * x1[q, d]).

  The zero block the accumulator starts from reads `0` at every row.
-/
import proofs.«145238_j11793980195385_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Norms

open Idealize.ShloMosaic Idealize.ShloMosaic.ValueIdx Cert.KernelIdeal

/-- The reduced index with the lane coordinate put back is the pair (row, lane). -/
theorem lift_eq (h : S1024x1024.Reduces [1] S1024) (p q : Fin 1024) :
    h.lift (ix1 p) q = ix2 p q :=
  funext fun a => Fin.ext (by
    match a with
    | ⟨0, _⟩ => rfl
    | ⟨1, _⟩ => rfl)

/-! The block product's operand indices, coordinate by coordinate: at output index `i` and contraction
    index `c` the left operand is read at (row of `i`, `c`) and the right one at (`c`, column of `i`). -/

theorem lhs_0 (i : S1024x1024.Idx) (c : dot_S1024x128_S128x1024_S1024x1024_1_0_0_1_n_n.contr.Idx) :
    (dot_S1024x128_S128x1024_S1024x1024_1_0_0_1_n_n.lhsIdx i c 0).val = (i 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl
theorem lhs_1 (i : S1024x1024.Idx) (c : dot_S1024x128_S128x1024_S1024x1024_1_0_0_1_n_n.contr.Idx) :
    (dot_S1024x128_S128x1024_S1024x1024_1_0_0_1_n_n.lhsIdx i c 1).val = (c ⟨0, by decide⟩).val :=
  dot_S1024x128_S128x1024_S1024x1024_1_0_0_1_n_n.lhsIdx_val_of_single rfl i c
theorem rhs_0 (i : S1024x1024.Idx) (c : dot_S1024x128_S128x1024_S1024x1024_1_0_0_1_n_n.contr.Idx) :
    (dot_S1024x128_S128x1024_S1024x1024_1_0_0_1_n_n.rhsIdx i c 0).val = (c ⟨0, by decide⟩).val :=
  dot_S1024x128_S128x1024_S1024x1024_1_0_0_1_n_n.rhsIdx_val_of_single rfl i c
theorem rhs_1 (i : S1024x1024.Idx) (c : dot_S1024x128_S128x1024_S1024x1024_1_0_0_1_n_n.contr.Idx) :
    (dot_S1024x128_S128x1024_S1024x1024_1_0_0_1_n_n.rhsIdx i c 1).val = (i 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-- The block product into the zero accumulator, at (p, q): the inner product of row p of the left
    operand with column q of the right one. -/
theorem matmul_at (l : FVec Ideal S1024x128 .bf16) (r : FVec Ideal S128x1024 .bf16) (p q : Fin 1024) :
    matmul dot_S1024x128_S128x1024_S1024x1024_1_0_0_1_n_n none l r (constant (F := Ideal) S1024x1024 .f32 0x00000000#32) (ix2 p q)
      = ∑ d : Fin 128, (l (ix2 p d) : EReal) * (r (ix2 d q) : EReal) := by
  simp only [matmul]
  rw [Ideal.matmul_constant_zero_apply, ← Equiv.sum_comp (ValueIdx.contrEquiv1 dot_S1024x128_S128x1024_S1024x1024_1_0_0_1_n_n 128 rfl rfl).symm]
  refine Finset.sum_congr rfl fun k _ => ?_
  have hk := ValueIdx.contrEquiv1_symm_val dot_S1024x128_S128x1024_S1024x1024_1_0_0_1_n_n 128 rfl rfl k
  have el : dot_S1024x128_S128x1024_S1024x1024_1_0_0_1_n_n.lhsIdx (ix2 p q) ((ValueIdx.contrEquiv1 dot_S1024x128_S128x1024_S1024x1024_1_0_0_1_n_n 128 rfl rfl).symm k) = ix2 p k := funext fun a => Fin.ext (by
    match a with
    | ⟨0, _⟩ => exact lhs_0 _ _
    | ⟨1, _⟩ => exact (lhs_1 _ _).trans hk)
  have er : dot_S1024x128_S128x1024_S1024x1024_1_0_0_1_n_n.rhsIdx (ix2 p q) ((ValueIdx.contrEquiv1 dot_S1024x128_S128x1024_S1024x1024_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The zero block the accumulator is set to at the first column block reads `0` at every row. -/
theorem pay1_apply (p : Fin 1024) :
    Cert.KernelIdeal.Gen.k0_pay1 (F := Ideal) (ix2 p (0 : Fin 1)) = (0 : EReal) := by
  unfold Cert.KernelIdeal.Gen.k0_pay1
  rw [shapeCast_self]
  exact Ideal.ofBits_zero_f32

/-- One accumulation step at row `p`: the accumulator plus the sum, over the 1024 rows `q` of the second
    block, of the exponential of the inner product of row `p` of the first block with row `q` of the second. -/
theorem pay2_apply (x0 x1 : Vec Ideal S1024x128 .f32) (acc : Vec Ideal S1024x1 .f32) (p : Fin 1024) :
    Cert.KernelIdeal.Gen.k0_pay2 (F := Ideal) x0 x1 acc (ix2 p (0 : Fin 1))
      = (acc (ix2 p (0 : Fin 1)) : EReal)
        + ∑ q : Fin 1024, Ideal.exp (∑ d : Fin 128, (x0 (ix2 p d) : EReal) * (x1 (ix2 q d) : EReal)) := by
  unfold Cert.KernelIdeal.Gen.k0_pay2
  rw [shapeCast_self, addf_apply]
  refine congrArg (_ + ·) ?_
  refine (shapeCast_apply _ Gen.shapeCasts_S1024_S1024x1 (ix2 p (0 : Fin 1)) (ix1 p) (by
    rw [Shape.rowMajor_val_one, Shape.rowMajor_val_two]
    show p.val = p.val * 1 + 0
    omega)).trans ?_
  refine (Ideal.multiReduction_add_single _ 0x00000000#32 Gen.reduces_S1024x1024_S1024 _ _ (ix1 p)).trans ?_
  refine Finset.sum_congr (s₁ := (Finset.univ : Finset (Fin 1024))) rfl fun (q : Fin 1024) _ => ?_
  rw [lift_eq]
  show Ideal.exp _ = _
  refine congrArg Ideal.exp ?_
  refine (matmul_at _ _ p q).trans ?_
  refine Finset.sum_congr rfl fun d _ => ?_
  rw [transpose_ix2_apply]
  rfl

end Cert.Norms

end
-- ==== Proof.NormsLaw.lean ====
/-
  Regrouping a sum of 12288 terms into 12 blocks of 1024, and a running sum of 12 block sums.

  Every natural number below 12288 is `1024 * j + q` for exactly one pair `j < 12`, `q < 1024`; the sum
  over the 12288 indices is therefore the sum over `j` of the sums over `q`. A sequence that starts at
  `0 + s 0` and adds `s (j + 1)` at step `j + 1` is, after step `n`, the sum of `s 0 … s n`. Both hold
  in any commutative additive monoid; nothing about the terms is used, so they hold on the extended
  reals with no finiteness assumption.
-/
import Mathlib.Algebra.BigOperators.Fin
import Mathlib.Data.Fintype.BigOperators

namespace Cert.Norms

open scoped BigOperators

/-- Index `q` of block `j`, as an index below 12288. -/
def blockIdx (j : Fin 12) (q : Fin 1024) : Fin 12288 :=
  ⟨1024 * j.val + q.val, by have := j.isLt; have := q.isLt; omega⟩

@[simp] theorem blockIdx_val (j : Fin 12) (q : Fin 1024) : (blockIdx j q).val = 1024 * j.val + q.val := rfl

/-- (block, offset) pairs and indices below 12288 correspond one to one. -/
def blockEquiv : Fin 12 × Fin 1024 ≃ Fin 12288 where
  toFun x := blockIdx x.1 x.2
  invFun c := (⟨c.val / 1024, by have := c.isLt; omega⟩, ⟨c.val % 1024, by omega⟩)
  left_inv := fun ⟨j, q⟩ => by
    have hj := j.isLt
    have hq := q.isLt
    refine Prod.ext (Fin.ext ?_) (Fin.ext ?_)
    · show (1024 * j.val + q.val) / 1024 = j.val
      omega
    · show (1024 * j.val + q.val) % 1024 = q.val
      omega
  right_inv c := Fin.ext (by
    show 1024 * (c.val / 1024) + c.val % 1024 = c.val
    omega)

/-- The sum over 12288 indices, block by block. -/
theorem sum_blocks {M : Type*} [AddCommMonoid M] (f : Fin 12288 → M) :
    ∑ c : Fin 12288, f c = ∑ j : Fin 12, ∑ q : Fin 1024, f (blockIdx j q) := by
  rw [← Equiv.sum_comp blockEquiv f, Fintype.sum_prod_type]
  rfl

/-- A running sum that starts at `0 + s 0` and adds `s (j + 1)` at step `j + 1` is the sum of the terms so far. -/
theorem runningSum_eq {M : Type*} [AddCommMonoid M] (s a : ℕ → M) (h0 : a 0 = 0 + s 0)
    (hs : ∀ j, a (j + 1) = a j + s (j + 1)) (n : ℕ) : a n = ∑ k ∈ Finset.range (n + 1), s k := by
  induction n with
  | zero => rw [h0, zero_add, Finset.sum_range_one]
  | succ n ih => rw [hs, ih, ← Finset.sum_range_succ]

/-- After the twelfth step the running sum is the sum over the twelve blocks. -/
theorem runningSum_twelve {M : Type*} [AddCommMonoid M] (s a : ℕ → M) (h0 : a 0 = 0 + s 0)
    (hs : ∀ j, a (j + 1) = a j + s (j + 1)) : a 11 = ∑ j : Fin 12, s j.val := by
  rw [runningSum_eq s a h0 hs 11, Fin.sum_univ_eq_sum_range]

end Cert.Norms
-- ==== Proof.NormsSpec.lean ====
/-
  The row norms of an embedding, as one function of the array: for a 12288 × 128 array `e` of extended
  reals, row `r` has the norm

      ∑ c < 12288, exp (∑ d < 128, e[r, d] * e[c, d]),

  the sum over every row `c` of the exponential of the inner product of rows `r` and `c`.
-/
import Idealize.ShloMosaic.PureOps.Ideal
import Idealize.ShloMosaic.Lib.ValueIdx

noncomputable section

namespace Cert.Norms

open Idealize.ShloMosaic Idealize.ShloMosaic.ValueIdx

/-- The norm of row `r`. -/
def rowNorm (e : (⟨2, ![12288, 128]⟩ : Shape).Idx → EReal) (r : Fin 12288) : EReal :=
  ∑ c : Fin 12288, Ideal.exp (∑ d : Fin 128, e (ix2 r d) * e (ix2 c d))

end Cert.Norms

end
-- ==== Proof.NormsChain.lean ====
/-
  Twelve accumulation steps along one row block give the row norms.

  Row block `i` of the result is built in twelve steps: the accumulator starts as the zero block and step
  `j` adds, at row `p`, the sum over the 1024 rows `q` of block `j` of exp ⟨row 1024 i + p, row 1024 j + q⟩.
  After the twelfth step row `p` holds ((0 + s 0) + s 1) + … + s 11 with `s j` that block sum, which is
  the sum over all 12288 rows `c = 1024 j + q`: the norm of row `1024 i + p`. Only `0 + x = x` and the
  regrouping of a sum in a commutative monoid are used; no entry needs to be finite.
-/
import proofs.«145238_j11793980195385_1_alg».proof.Proof.NormsStep
import proofs.«145238_j11793980195385_1_alg».proof.Proof.NormsLaw
import proofs.«145238_j11793980195385_1_alg».proof.Proof.NormsSpec

noncomputable section

namespace Cert.Norms

open Idealize.ShloMosaic Idealize.ShloMosaic.ValueIdx Cert.KernelIdeal

/-- Rows `1024 k … 1024 k + 1023` of `e` as a 1024 × 128 block. The row index is taken below 12288 by a
    remainder so that the block is defined for every `k`; for `k < 12` the remainder changes nothing
    (`blk_apply`). -/
def blk (e : S12288x128.Idx → EReal) (k : ℕ) : Vec Ideal S1024x128 .f32 :=
  fun y => e (ix2 ⟨(1024 * k + (y 0).val) % 12288, Nat.mod_lt _ (by decide)⟩ ⟨(y 1).val, idx2_lt1 y⟩)

/-- Block `k` at (p, d) is `e` at row `1024 k + p`, column `d`. -/
theorem blk_apply (e : S12288x128.Idx → EReal) (k : Fin 12) (p : Fin 1024) (d : Fin 128) :
    blk e k.val (ix2 p d) = e (ix2 (blockIdx k p) d) := by
  have hk := k.isLt
  have hp := p.isLt
  show e (ix2 ⟨(1024 * k.val + p.val) % 12288, _⟩ ⟨d.val, _⟩) = _
  refine congrArg e (congrArg (fun r => ix2 r d) (Fin.ext ?_))
  show (1024 * k.val + p.val) % 12288 = 1024 * k.val + p.val
  omega

/-- A block is determined by its entries: a 1024 × 128 block that reads `e` at row `1024 k + p` is block `k`. -/
theorem eq_blk (e : S12288x128.Idx → EReal) (k : Fin 12) (x : Vec Ideal S1024x128 .f32)
    (h : ∀ (p : Fin 1024) (d : Fin 128), x (ix2 p d) = e (ix2 (blockIdx k p) d)) : x = blk e k.val := by
  funext y
  obtain ⟨p, d, rfl⟩ : ∃ (p : Fin 1024) (d : Fin 128), y = ix2 p d := ⟨y 0, y 1, eq_ix2 y⟩
  rw [h, blk_apply]

/-- The accumulator of row block `i` after step `j`: the zero block, then one step per column block. -/
def chain (e : S12288x128.Idx → EReal) (i : Fin 12) : ℕ → Vec Ideal S1024x1 .f32
  | 0 => Gen.k0_pay2 (F := Ideal) (blk e i.val) (blk e 0) (Gen.k0_pay1 (F := Ideal))
  | j + 1 => Gen.k0_pay2 (F := Ideal) (blk e i.val) (blk e (j + 1)) (chain e i j)

theorem chain_zero (e : S12288x128.Idx → EReal) (i : Fin 12) :
    chain e i 0 = Gen.k0_pay2 (F := Ideal) (blk e i.val) (blk e 0) (Gen.k0_pay1 (F := Ideal)) := rfl

theorem chain_succ (e : S12288x128.Idx → EReal) (i : Fin 12) (j : ℕ) :
    chain e i (j + 1) = Gen.k0_pay2 (F := Ideal) (blk e i.val) (blk e (j + 1)) (chain e i j) := rfl

/-- After the twelfth step, row `p` of row block `i` holds the norm of row `1024 i + p`. -/
theorem chain_last (e : S12288x128.Idx → EReal) (i : Fin 12) (p : Fin 1024) :
    chain e i 11 (ix2 p (0 : Fin 1)) = rowNorm e (blockIdx i p) := by
  have h := runningSum_twelve
    (fun k => ∑ q : Fin 1024, Ideal.exp (∑ d : Fin 128, (blk e i.val (ix2 p d) : EReal) * (blk e k (ix2 q d) : EReal)))
    (fun j => (chain e i j (ix2 p (0 : Fin 1)) : EReal))
    (by
      show chain e i 0 (ix2 p (0 : Fin 1)) = _
      rw [chain_zero, pay2_apply, pay1_apply])
    (fun j => by
      show chain e i (j + 1) (ix2 p (0 : Fin 1)) = _
      rw [chain_succ, pay2_apply])
  refine h.trans ?_
  simp only [blk_apply]
  exact (sum_blocks (fun c => Ideal.exp (∑ d : Fin 128, e (ix2 (blockIdx i p) d) * e (ix2 c d)))).symm

end Cert.Norms

end
-- ==== Proof.NormsGlue.lean ====
/-
  From the twelve row blocks to the whole vector of norms.

  Every row index below 12288 is `1024 i + p` for some block `i < 12` and offset `p < 1024`. So a
  12288 × 1 array whose block `i` holds, at offset `p`, the accumulator of row block `i` after its
  twelfth step holds the norm of row `r` at (r, 0); viewed as a vector of 12288 entries (the row-major
  position of (r, 0) in a 12288 × 1 array is `r`) it is the vector of row norms.
-/
import proofs.«145238_j11793980195385_1_alg».proof.Proof.NormsChain

noncomputable section

namespace Cert.Norms

open Idealize.ShloMosaic Idealize.ShloMosaic.ValueIdx Cert.KernelIdeal

/-- Every row index is `1024 i + p`: `i` the quotient and `p` the remainder by 1024. -/
theorem exists_blockIdx (r : Fin 12288) : ∃ (i : Fin 12) (p : Fin 1024), r = blockIdx i p :=
  ⟨(blockEquiv.symm r).1, (blockEquiv.symm r).2, (blockEquiv.apply_symm_apply r).symm⟩

/-- A 12288 × 1 array viewed as a vector reads, at `r`, the array at (r, 0). -/
theorem shapeCast_column_apply {α : Type} (G : S12288x1.Idx → α) (h : S12288x1.ShapeCasts S12288) (r : Fin 12288) :
    shapeCast S12288 G h (ix1 r) = G (ix2 r (0 : Fin 1)) :=
  shapeCast_apply G h (ix1 r) (ix2 r (0 : Fin 1)) (by
    rw [Shape.rowMajor_val_two, Shape.rowMajor_val_one]
    show r.val * 1 + 0 = r.val
    omega)

/-- An array built block by block from the twelfth accumulators holds the row norms in its one column. -/
theorem column_eq_rowNorm (e : S12288x128.Idx → EReal) (G : S12288x1.Idx → EReal)
    (hG : ∀ (i : Fin 12) (p : Fin 1024), G (ix2 (blockIdx i p) (0 : Fin 1)) = chain e i 11 (ix2 p (0 : Fin 1)))
    (r : Fin 12288) : G (ix2 r (0 : Fin 1)) = rowNorm e r := by
  obtain ⟨i, p, rfl⟩ := exists_blockIdx r
  rw [hG, chain_last]

/-- Viewed as a vector it is the vector of row norms. -/
theorem vector_eq_rowNorm (e : S12288x128.Idx → EReal) (G : S12288x1.Idx → EReal)
    (hG : ∀ (i : Fin 12) (p : Fin 1024), G (ix2 (blockIdx i p) (0 : Fin 1)) = chain e i 11 (ix2 p (0 : Fin 1)))
    (h : S12288x1.ShapeCasts S12288) :
    shapeCast S12288 G h = fun y => rowNorm e (y 0) := by
  funext y
  obtain ⟨r, rfl⟩ : ∃ r : Fin 12288, y = ix1 r := ⟨y 0, eq_ix1 y⟩
  rw [shapeCast_column_apply]
  exact column_eq_rowNorm e G hG r

end Cert.Norms

end
-- ==== Proof.NormsBlocks.lean ====
/-
  The kernel's windows and accumulator, read against the embedding.

  The grid is 12 × 12 and point t = 12 i + j. The first window's block index at t is (i, 0) and the
  second's is (j, 0), both over the same 12288 × 128 embedding in blocks of 1024 × 128, so the two input
  blocks at t are rows 1024 i … and rows 1024 j … of the embedding. The accumulator restarts from the
  zero block at j = 0 and takes one accumulation step per point, so after point 12 i + j it is the j-th
  term of the chain of row block i.
-/
import proofs.«145238_j11793980195385_1_alg».proof.Proof.DatI
import proofs.«145238_j11793980195385_1_alg».proof.Proof.NormsGlue

set_option maxRecDepth 16384

noncomputable section

namespace Cert.Norms

open Idealize.ShloMosaic Idealize.ShloMosaic.TcCoe Idealize.ShloMosaic.ValueIdx
open Idealize.SL.Sem
open Cert.KernelIdeal Cert.KernelIdeal.Gen

variable (V : (c : Dev nD) → (b : Ref sig .tc) → Buf (Elt Ideal) ((c : Thread nD τ).loc b))

/-- The three windows' block indices at point t = 12 i + j: (i, 0), (j, 0) and (i, 0). -/
theorem idx_facts : ∀ t : Fin cfg0.N,
    win0_0.index t (0 : Fin 2) = t.val / 12 ∧ win0_0.index t (1 : Fin 2) = 0
    ∧ win0_1.index t (0 : Fin 2) = t.val % 12 ∧ win0_1.index t (1 : Fin 2) = 0
    ∧ win0_2.index t (0 : Fin 2) = t.val / 12 ∧ win0_2.index t (1 : Fin 2) = 0 :=
  (by decide +kernel : ∀ t : Fin grid0.N, _)

/-- The embedding as the region finds it. -/
abbrev emb (c : Dev nD) : S12288x128.Idx → EReal := V c main_arg4

/-- At point t = 12 i + j the first window holds rows 1024 i … of the embedding, -/
theorem iblk0_eq (c : Dev nD) (t : Fin cfg0.N) :
    Body.iblk (F := Ideal) V c 0 t = blk (emb V c) (t.val / 12) := by
  have hN : t.val < 144 := lt_of_lt_of_eq t.isLt (show cfg0.N = 144 from N_0)
  obtain ⟨e0, e1, -, -, -, -⟩ := idx_facts t
  refine eq_blk (emb V c) ⟨t.val / 12, by omega⟩ _ fun p d => ?_
  unfold Body.iblk
  rw [View.read_apply]
  show V c main_arg4 (((cfg0.win 0).blk t).view.emb (ix2 p d)) = V c main_arg4 (ix2 (blockIdx ⟨t.val / 12, _⟩ p) d)
  refine congrArg _ (funext fun a => Fin.ext ?_)
  match a with
  | ⟨0, _⟩ =>
    show win0_0.index t (0 : Fin 2) * 1024 + 1 * p.val = 1024 * (t.val / 12) + p.val
    rw [e0]; omega
  | ⟨1, _⟩ =>
    show win0_0.index t (1 : Fin 2) * 128 + 1 * d.val = d.val
    rw [e1]; omega

/-- and the second window rows 1024 j …. -/
theorem iblk1_eq (c : Dev nD) (t : Fin cfg0.N) :
    Body.iblk (F := Ideal) V c 1 t = blk (emb V c) (t.val % 12) := by
  obtain ⟨-, -, e2, e3, -, -⟩ := idx_facts t
  refine eq_blk (emb V c) ⟨t.val % 12, Nat.mod_lt _ (by decide)⟩ _ fun p d => ?_
  unfold Body.iblk
  rw [View.read_apply]
  show V c main_arg4 (((cfg0.win 1).blk t).view.emb (ix2 p d)) = V c main_arg4 (ix2 (blockIdx ⟨t.val % 12, _⟩ p) d)
  refine congrArg _ (funext fun a => Fin.ext ?_)
  match a with
  | ⟨0, _⟩ =>
    show win0_1.index t (0 : Fin 2) * 1024 + 1 * p.val = 1024 * (t.val % 12) + p.val
    rw [e2]; omega
  | ⟨1, _⟩ =>
    show win0_1.index t (1 : Fin 2) * 128 + 1 * d.val = d.val
    rw [e3]; omega

/-- The accumulator after a point depends on the point's number only. -/
theorem accAt_congr (c : Dev nD) (n n' : ℕ) (h : n < cfg0.N) (h' : n' < cfg0.N) (e : n = n') :
    Body.accAt (F := Ideal) V c n h = Body.accAt (F := Ideal) V c n' h' := by
  subst e; rfl

/-- Along row block i the accumulator after column block j is the j-th term of the chain. -/
theorem accAt_eq_chain (c : Dev nD) (i : Fin 12) : ∀ (j : ℕ) (hj : j < 12) (h : 12 * i.val + j < cfg0.N),
    Body.accAt (F := Ideal) V c (12 * i.val + j) h = chain (emb V c) i j
  | 0, _, h => by
    have hi := i.isLt
    have h1 := Body.accAt_first (F := Ideal) V c ⟨12 * i.val + 0, h⟩ (by show (12 * i.val + 0) % 12 = 0; omega)
    refine h1.trans ?_
    rw [iblk0_eq, iblk1_eq, chain_zero]
    have a0 : (12 * i.val + 0) / 12 = i.val := by omega
    have a1 : (12 * i.val + 0) % 12 = 0 := by omega
    show Gen.k0_pay2 (blk (emb V c) ((12 * i.val + 0) / 12)) (blk (emb V c) ((12 * i.val + 0) % 12)) _ = _
    rw [a0, a1]
  | j + 1, hj, h => by
    have hi := i.isLt
    have h1 := Body.accAt_next (F := Ideal) V c ⟨12 * i.val + (j + 1), h⟩ (by show ¬ (12 * i.val + (j + 1)) % 12 = 0; omega)
    refine h1.trans ?_
    have hN : cfg0.N = 144 := N_0
    rw [iblk0_eq, iblk1_eq, chain_succ,
      accAt_congr V c (12 * i.val + (j + 1) - 1) (12 * i.val + j) _ (by rw [hN]; omega) (by omega),
      accAt_eq_chain c i j (by omega) (by rw [hN]; omega)]
    have a0 : (12 * i.val + (j + 1)) / 12 = i.val := by omega
    have a1 : (12 * i.val + (j + 1)) % 12 = j + 1 := by omega
    show Gen.k0_pay2 (blk (emb V c) ((12 * i.val + (j + 1)) / 12)) (blk (emb V c) ((12 * i.val + (j + 1)) % 12)) _ = _
    rw [a0, a1]

end Cert.Norms

end
-- ==== Proof.NormsArray.lean ====
/-
  The kernel's output array after the region holds the row norms.

  The output window's block index at point t = 12 i + j is (i, 0) and the block is written back exactly at
  j = 11, with the accumulator of row block i after its twelfth step, that is with the norms of rows
  1024 i … 1024 i + 1023. Row r of the 12288 × 1 array lies in the block of the point 12 (r / 1024) + 11, so
  the twelve blocks written back cover the array and it ends holding the norm of row r at (r, 0).
-/
import proofs.«145238_j11793980195385_1_alg».proof.Proof.NormsBlocks

set_option maxRecDepth 16384

noncomputable section

namespace Cert.Norms

open Idealize.ShloMosaic Idealize.ShloMosaic.TcCoe Idealize.ShloMosaic.ValueIdx
open Idealize.SL Idealize.SL.RA Idealize.SL.Sem
open Idealize.ShloMosaic.Pipeline (Dat)
open Cert.KernelIdeal Cert.KernelIdeal.Gen

variable (V : (c : Dev nD) → (b : Ref sig .tc) → Buf (Elt Ideal) ((c : Thread nD τ).loc b))
variable (q : Fin 3 → PosShare TreeShare)

/-- The row norms of the embedding as the region finds it, as a 12288 × 1 array. -/
abbrev normsCol (c : Dev nD) : S12288x1.Idx → EReal := fun y => rowNorm (emb V c) (y 0)

/-- What a point in the last column writes back is its block of the row norms. -/
theorem flushed_eq (c : Dev nD) (t : Fin cfg0.N) (hf : (cfg0.win 2).flush t = true) :
    (Body.dat (F := Ideal) V q c).flushed 2 t = ((cfg0.win 2).blk t).view.read (Elt Ideal) (normsCol V c) := by
  have h11 : t.val % 12 = 11 := (flush0_2 t).mp hf
  have hN : cfg0.N = 144 := N_0
  have htN : t.val < 144 := lt_of_lt_of_eq t.isLt hN
  obtain ⟨-, -, -, -, e4, e5⟩ := idx_facts t
  show (cfg0.win 2).cut (grid0.coords t) ((Body.dat (F := Ideal) V q c).after 2 t) = _
  rw [Body.after2]
  funext y
  rw [View.read_apply]
  show Body.accAt (F := Ideal) V c t.val t.isLt y = rowNorm (emb V c) ((((cfg0.win 2).blk t).view.emb y) 0)
  obtain ⟨p, u, rfl⟩ : ∃ (p : Fin 1024) (u : Fin 1), y = ix2 p u := ⟨y 0, y 1, eq_ix2 y⟩
  obtain rfl : u = 0 := Subsingleton.elim _ _
  rw [accAt_congr V c t.val (12 * (⟨t.val / 12, by omega⟩ : Fin 12).val + 11) t.isLt (by have := t.isLt; show 12 * (t.val / 12) + 11 < cfg0.N; omega)
      (by show t.val = 12 * (t.val / 12) + 11; omega),
    accAt_eq_chain V c ⟨t.val / 12, by omega⟩ 11 (by omega), chain_last]
  refine congrArg _ (Fin.ext ?_)
  show 1024 * (t.val / 12) + p.val = win0_2.index t (0 : Fin 2) * 1024 + 1 * p.val
  rw [e4]; omega

/-- An index of the 12288 × 1 array is in point t's block iff each coordinate is in the block's range. -/
theorem mem_blk (t : Fin cfg0.N) (i : S12288x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v44).slice (win0_2.rect t)).set ↔ _
  rw [View.set_slice_whole, Rect.mem_set_unit]
  exact Iff.rfl

/-- Row r lies in the block written back at the last point of row block r / 1024. -/
theorem cover (i : S12288x1.Idx) :
    ∃ t : Fin cfg0.N, (cfg0.win 2).flush t = true ∧ i ∈ ((cfg0.win 2).blk t).view.set := by
  have hr : (i 0).val < 12288 := idx2_lt0 i
  have hu : (i 1).val < 1 := idx2_lt1 i
  have hN : cfg0.N = 144 := N_0
  obtain ⟨t, ht⟩ : ∃ t : Fin cfg0.N, t.val = 12 * ((i 0).val / 1024) + 11 :=
    ⟨⟨12 * ((i 0).val / 1024) + 11, lt_of_lt_of_eq (by omega) hN.symm⟩, rfl⟩
  obtain ⟨-, -, -, -, e4, e5⟩ := idx_facts t
  refine ⟨t, (flush0_2 t).mpr (by omega), ?_⟩
  rw [mem_blk]
  intro a
  match a with
  | ⟨0, _⟩ =>
    show win0_2.index t (0 : Fin 2) * 1024 ≤ (i 0).val ∧ (i 0).val < win0_2.index t (0 : Fin 2) * 1024 + 1024
    rw [e4]; omega
  | ⟨1, _⟩ =>
    show win0_2.index t (1 : Fin 2) * 1 ≤ (i 1).val ∧ (i 1).val < win0_2.index t (1 : Fin 2) * 1 + 1
    rw [e5]; omega

/-- After the region the output array holds the row norms of the embedding. -/
theorem norms_array (c : Dev nD) :
    (Body.dat (F := Ideal) V q c).arrAt 2 cfg0.N = normsCol V c :=
  (Body.dat (F := Ideal) V q c).arrAt_eq_of_cover 2 (normsCol V c) (fun t hf => flushed_eq V q c t hf) cover

end Cert.Norms

end
-- ==== Proof.NormsRef.lean ====
/-
  The reference's norms are the row norms of the embedding.

  The reference transposes the 12288 × 128 embedding, multiplies the embedding by the transpose (a
  12288 × 12288 matrix of inner products of rows), takes the exponential of every entry and sums each
  row starting from zero. Read at row `r` on the extended reals, where the product is the plain sum
  over the 128 coordinates and the row sum is the plain sum over the 12288 columns, that is

      0 + ∑ c < 12288, exp (∑ d < 128, e[r, d] * e[c, d]),

  the norm of row `r`.
-/
import proofs.«145238_j11793980195385_1_alg».proof.Proof.Gen.ReferenceIdeal.Read
import proofs.«145238_j11793980195385_1_alg».proof.Proof.NormsSpec

noncomputable section

namespace Cert.Norms

open Idealize.ShloMosaic Idealize.ShloMosaic.ValueIdx Cert.ReferenceIdeal Cert.ReferenceIdeal.Read

/-! The reference's index maps at coordinates: the sum's operand at (r, c), the product's operands at
    (r, d) and (d, c), and the transpose's operand at (c, d). -/

theorem reduce_idx (r c : Fin 12288) : idx_main_v47 (ix1 r) c = ix2 r c :=
  funext fun a => Fin.ext (by match a with | ⟨0, _⟩ => rfl | ⟨1, _⟩ => rfl)
theorem dot_lidx (r c : Fin 12288) (d : Fin 128) : lidx_main_v45 (ix2 r c) d = ix2 r d :=
  funext fun a => Fin.ext (by match a with | ⟨0, _⟩ => rfl | ⟨1, _⟩ => rfl)
theorem dot_ridx (r c : Fin 12288) (d : Fin 128) : ridx_main_v45 (ix2 r c) d = ix2 d c :=
  funext fun a => Fin.ext (by match a with | ⟨0, _⟩ => rfl | ⟨1, _⟩ => rfl)
theorem transpose_idx (c : Fin 12288) (d : Fin 128) : idx_main_v44 (ix2 d c) = ix2 c d :=
  funext fun a => Fin.ext (by match a with | ⟨0, _⟩ => rfl | ⟨1, _⟩ => rfl)

/-- The reference's norms at row `r`: zero plus the sum over every row `c` of the exponential of the inner
    product of rows `r` and `c` of the embedding `e`. -/
theorem ref_norms (e : (⟨S12288x128, .f32⟩ : BufTy).Contents (Elt Ideal)) (r : Fin 12288) :
    val_main_v47 (F := Ideal) e (ix1 r) = rowNorm e r := by
  rw [val_main_v47_apply, val_main_cst_12_apply]
  simp only [reduce_idx, val_main_v46_apply, val_main_v45_apply, dot_lidx, dot_ridx, val_main_v44_apply, transpose_idx]
  rw [Ideal.ofBits_def, Ideal.ofBits_zero_f32, zero_add]
  simp only [Ideal.hostUnary_exp_def]
  rfl

/-- The same, as an equation between functions of the row index. -/
theorem ref_norms_fun (e : (⟨S12288x128, .f32⟩ : BufTy).Contents (Elt Ideal)) :
    val_main_v47 (F := Ideal) e = fun y => rowNorm e (y 0) := by
  funext y
  obtain ⟨r, rfl⟩ : ∃ r : Fin 12288, y = ix1 r := ⟨y 0, eq_ix1 y⟩
  exact ref_norms e r

end Cert.Norms

end
-- ==== Proof.NormsJoin.lean ====
/-
  The kernel's norms, viewed as a vector, are the reference's.

  The program views the kernel's 12288 × 1 output as a vector of 12288 entries; entry r is the array at
  (r, 0), the norm of row r of the embedding. The reference's norms of the same embedding are the same
  function of the row index.
-/
import proofs.«145238_j11793980195385_1_alg».proof.Proof.NormsArray
import proofs.«145238_j11793980195385_1_alg».proof.Proof.NormsRef

set_option maxRecDepth 16384

noncomputable section

namespace Cert.Norms

open Idealize.ShloMosaic Idealize.ShloMosaic.TcCoe Idealize.ShloMosaic.ValueIdx
open Idealize.SL Idealize.SL.RA Idealize.SL.Sem
open Cert.KernelIdeal Cert.KernelIdeal.Gen

variable (V : (c : Dev nD) → (b : Ref sig .tc) → Buf (Elt Ideal) ((c : Thread nD τ).loc b))
variable (q : Fin 3 → PosShare TreeShare)
/-- Viewed as a vector of 12288 entries it is the reference's norms of the same embedding. -/
theorem norms_vector (c : Dev nD) :
    shapeCast Cert.KernelIdeal.S12288 ((Cert.KernelIdeal.Body.dat (F := Ideal) V q c).arrAt 2 Cert.KernelIdeal.cfg0.N)
        Cert.KernelIdeal.Gen.shapeCasts_S12288x1_S12288
      = Cert.ReferenceIdeal.Read.val_main_v47 (F := Ideal) (V c Cert.KernelIdeal.main_arg4) := by
  rw [norms_array, ref_norms_fun]
  funext y
  obtain ⟨r, rfl⟩ : ∃ r : Fin 12288, y = ix1 r := ⟨y 0, eq_ix1 y⟩
  exact shapeCast_column_apply (normsCol V c) _ r

end Cert.Norms

end
-- ==== Proof.ValueI.lean ====
/-
  The kernel program's final scalar, at the exact-arithmetic instance, as a function of the arguments.

  After the last stretch the result buffer holds  visit_cost + tail (reshape (output column)), by the two stage
  lemmas; the visit cost the stretches before the region left is the reference's stage of the arguments; the output
  column, reshaped to a vector, is the reference's vector of row normalisers of the embedding table (twelve
  accumulate steps per row block regroup into one sum over all 12288 rows); and no host operation nor the region
  writes an argument. So the final scalar is the reference's last stage of the launch contents of the arguments.
-/
import proofs.«145238_j11793980195385_1_alg».proof.Proof.FrameI
import proofs.«145238_j11793980195385_1_alg».proof.Proof.HostValueI
import proofs.«145238_j11793980195385_1_alg».proof.Proof.NormsJoin

set_option maxRecDepth 16384

noncomputable section

namespace Cert.KernelIdeal.Run

open Idealize.ShloMosaic Idealize.ShloMosaic.TcCoe
open Idealize.SL Idealize.SL.Sem
open Cert.KernelIdeal Cert.KernelIdeal.Gen

variable (m : (ℓ : Loc nD τ sig) → Buf (Elt Ideal) ℓ) (ρ : Dev nD → PrngReg)

/-- No stretch before the region writes an argument, -/
theorem W3_arg (c : Dev nD) (k : Fin 7) :
    W3 m ρ c (Proc.devRef .tc (Keeps.argRef k)) = m ((c : Thread nD τ).loc (Keeps.argRef k)) :=
  calc W3 m ρ c (Proc.devRef .tc (Keeps.argRef k))
    _ = W2 m ρ c (Proc.devRef .tc (Keeps.argRef k)) := Keeps.after_keeps0_2 _ k
    _ = W1 m ρ c (Proc.devRef .tc (Keeps.argRef k)) := Keeps.after_keeps0_1 _ k
    _ = W0 m ρ c (Proc.devRef .tc (Keeps.argRef k)) := Keeps.after_keeps0 _ k
    _ = m ((c : Thread nD τ).loc (Keeps.argRef k)) := rfl

/-- nor does the region. -/
theorem W4_arg (c : Dev nD) (k : Fin 7) :
    W4 m ρ c (Proc.devRef .tc (Keeps.argRef k)) = m ((c : Thread nD τ).loc (Keeps.argRef k)) :=
  (Shared.exitVal_of_ne _ _ (Keeps.argRef k) (Keeps.argRef_ne_v44 k)).trans (W3_arg m ρ c k)

/-- The kernel program's final scalar is the reference's last stage of the arguments' launch contents. -/
theorem kernel_value (c : Dev nD) :
    W5 m ρ c (Proc.devRef .tc main_v77)
      = Cert.ReferenceIdeal.Read.val_main_v79 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  have h43 : W4 m ρ c (Proc.devRef .tc main_v43)
      = Cert.ReferenceIdeal.Read.val_main_v43 (F := Ideal) (m ((c : Thread nD τ).loc main_arg0)) (m ((c : Thread nD τ).loc main_arg3))
          (m ((c : Thread nD τ).loc main_arg4)) (m ((c : Thread nD τ).loc main_arg5)) (m ((c : Thread nD τ).loc main_arg6)) :=
    (Shared.exitVal_of_ne _ _ main_v43 (by decide)).trans (Cert.HostValue.kernel_visit_cost (W0 m ρ c))
  have h44 : W4 m ρ c (Proc.devRef .tc main_v44) = (Body.dat (V3 m ρ) Shared.qIn c).arrAt 2 cfg0.N := Shared.exitVal_arr _ _
  have h1 : W4 m ρ c (Proc.devRef .tc main_arg1) = m ((c : Thread nD τ).loc main_arg1) := W4_arg m ρ c 1
  have h2 : W4 m ρ c (Proc.devRef .tc main_arg2) = m ((c : Thread nD τ).loc main_arg2) := W4_arg m ρ c 2
  have h4 : W4 m ρ c (Proc.devRef .tc main_arg4) = m ((c : Thread nD τ).loc main_arg4) := W4_arg m ρ c 4
  have he : V3 m ρ c main_arg4 = m ((c : Thread nD τ).loc main_arg4) := W3_arg m ρ c 4
  refine (Cert.HostValue.kernel_tail (W4 m ρ c)).trans ?_
  rw [h43, h44, h1, h2, h4, Cert.Norms.norms_vector (V3 m ρ) Shared.qIn c, he, Cert.HostValue.tail_ref]
  unfold Cert.ReferenceIdeal.Read.val_main_v79
  rfl

end Cert.KernelIdeal.Run

end
-- ==== Proof.lean ====
/-
  The certificate: a Pallas kernel that computes the row normalisers of a skip-gram style concept cost, inside a
  model's forward pass, against its plain reference.

  Both programs take the same visit cost from the arguments by the same host operations, and both finish by the
  same operations from the vector  norms[r] = sum over c of exp (e[r] . e[c])  on (e the [12288, 128] embedding
  table). They differ in how `norms` is made. The reference takes the whole [12288, 12288] product, exponentiates
  and sums each row. The kernel runs a 12 x 12 grid of [1024, 128] blocks of the same table (the table is handed
  to it twice, once for the row block and once for the column block), keeps a [1024, 1] accumulator in scratch that
  is zeroed at the first column block, adds at each point the row sums of exp (rows_i * rows_j^T), and at the last
  column block copies the accumulator to the output block.

  Over the extended reals with exact operations the two agree: a change of float format is the identity, the matrix
  product into a zero accumulator and the lane sum are plain sums, and twelve partial sums over blocks of 1024
  columns regroup into the one sum over 12288 columns — only commutativity and associativity of addition, so the
  finiteness of the inputs is never used.

  The frames of the two kernel programs are the run of @main segment by segment (host stretch, host stretch, host
  stretch, the region, host stretch), the region's body obligation by the column case of the grid point, the table's
  share halved between the two windows that read it; the reference's frame is its run. The idealization rewrote
  nothing, so there is nothing to preserve.
-/
import proofs.«145238_j11793980195385_1_alg».proof.Defs
import proofs.«145238_j11793980195385_1_alg».proof.Proof.Gen.Kernel
import proofs.«145238_j11793980195385_1_alg».proof.Proof.Gen.KernelIdeal
import proofs.«145238_j11793980195385_1_alg».proof.Proof.Gen.ReferenceIdeal
import proofs.«145238_j11793980195385_1_alg».proof.Proof.Gen.ReferenceIdeal.Run
import proofs.«145238_j11793980195385_1_alg».proof.Proof.Gen.ReferenceIdeal.Read
import proofs.«145238_j11793980195385_1_alg».proof.Proof.Gen.Pre_finite_inputs
import proofs.«145238_j11793980195385_1_alg».proof.Proof.FrameB
import proofs.«145238_j11793980195385_1_alg».proof.Proof.ValueI
import Idealize.ShloMosaic.Adequacy
import Idealize.ShloMosaic.Init

noncomputable section

namespace Cert.Proof

open Idealize.ShloMosaic Idealize.SL.Sem

/-- The word-level kernel program runs to the end, faults nowhere and leaves its arguments as they were. -/
theorem frame_kernel : Cert.frame_Kernel := fun m ρ _ => Cert.Kernel.Run.frame (F := Bits) m ρ

/-- So does its reading over the extended reals. -/
theorem frame_kernelIdeal : Cert.frame_KernelIdeal := fun m ρ _ => Cert.KernelIdeal.Run.frame (F := Ideal) m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the reference's last stage of those arguments
    in their result buffers. -/
theorem algebraic : Cert.algebraic_KernelIdeal_ReferenceIdeal := by
  intro m ρ m' ρ' _ hagree
  refine ⟨fun c => Cert.ReferenceIdeal.Read.val_main_v79 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Run.kernel_value m ρ c), (h c).2⟩)
      (Cert.KernelIdeal.Run.run_value (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v79_eq, (hagree c).1, (hagree c).2.1, (hagree c).2.2.1,
      (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
